-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x4096x128 .f32) (main_arg1 : FVec F S128x128 .f32) (main_arg2 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x4096x128 : Shape := ⟨3, ![4, 4096, 128]⟩
abbrev S128x128 : Shape := ⟨2, ![128, 128]⟩
abbrev S128 : Shape := ⟨1, ![128]⟩
abbrev S16384x128 : Shape := ⟨2, ![16384, 128]⟩
abbrev S1x128 : Shape := ⟨2, ![1, 128]⟩
abbrev S2048x128 : Shape := ⟨2, ![2048, 128]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x1024x128 : Shape := ⟨3, ![1, 1024, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S1024x128 : Shape := ⟨2, ![1024, 128]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128, .f32⟩
  | .hbm, ⟨3, _⟩ => ⟨S16384x128, .f32⟩
  | .hbm, ⟨4, _⟩ => ⟨S1x128, .f32⟩
  | .hbm, ⟨5, _⟩ => ⟨S16384x128, .bf16⟩
  | .hbm, ⟨6, _⟩ => ⟨S4x4096x128, .bf16⟩
  | .hbm, ⟨7, _⟩ => ⟨S4x4096x128, .f32⟩
  | .hbm, ⟨8, _⟩ => ⟨S4x4096x128, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S4x1x4096, .f32⟩
  | .hbm, ⟨13, _⟩ => ⟨S4x4096x4096, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  shapeCasts_S4x4096x128_S16384x128 : S4x4096x128.ShapeCasts S16384x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S2048x128 : S1x128.Broadcasts S2048x128
  packedbf16_S2048x128_S2048x128_0_0 : (Rect.unit (s := S2048x128) ![0, 0] S2048x128.size inb_S2048x128_S2048x128_0_0).PackedRows (EltTy.packing .bf16)
  shapeCasts_S16384x128_S4x4096x128 : S16384x128.ShapeCasts S4x4096x128
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x128_S128x128_S2048x128_1_1_0_0_n_n_wf : DotDims.WF S2048x128 S128x128 S2048x128 [1] [1] [0] [0] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .bf16 = 32 ∨ (Rect.block (s := S16384x128) S2048x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .bf16 = 32 ∨ (Rect.block (s := S4x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x128.size a
  hwx1_1 : ∀ i : grid1.Coords, EltTy.bits .bf16 = 32 ∨ (Rect.block (s := S4x4096x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x4096x1.size a
  hwx1_2 : ∀ i : grid1.Coords, EltTy.bits .f32 = 32 ∨ (Rect.block (s := S4x4096x1) S1x1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x4096.size a
  hwx1_3 : ∀ i : grid1.Coords, EltTy.bits .f32 = 32 ∨ (Rect.block (s := S4x1x4096) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x4096.size a
  hwx1_4 : ∀ i : grid1.Coords, EltTy.bits .f32 = 32 ∨ (Rect.block (s := S4x4096x4096) S1x1024x1024.size (cc1_transform_4 i) (hinb1_4 i)).WholeWords (EltTy.packing .f32)

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x128 : Shape := ⟨3, ![4, 4096, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128, .f32⟩
  | .hbm, ⟨3, _⟩ => ⟨S4x4096x128, .f32⟩
  | .hbm, ⟨4, _⟩ => ⟨S1x1x128, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S_, .f32⟩
  | .hbm, ⟨9, _⟩ => ⟨S4x4096, .f32⟩
  | .hbm, ⟨10, _⟩ => ⟨S4x4096x4096, .f32⟩
  | .hbm, ⟨11, _⟩ => ⟨S4x4096x1, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.BitsProj.lean ====
/-
  The projection kernel (the first of the program's two kernel regions) as the pipeline runs it, at any float
  instance. Its grid has 8 points; at point t the pipeline hands the body rows 2048·t … 2048·t + 2047 of the
  flattened input (a block of [2048, 128]), the whole weight [128, 128] and the bias row [1, 128] — the last two
  never move, so they are fetched once and found again at every later point — and a [2048, 128] buffer for the result.
  The body loads the three inputs whole, computes, and stores the result buffer whole; it keeps nothing between points.

  So what the body finds in an input's buffer is that input's block at the point, fetched there or not, and what it
  leaves in the result's buffer is one store's value, a function of the three blocks: `projOut`. This file states that
  as the body's triple and packs it as the pipeline's proof data and body obligation, at a parameter `V`: the contents of the core's buffers when the region is entered.
-/
import proofs.«118612_j64948495450525_1_alg».proof.Proof.Gen.Kernel.Launch
import proofs.«118612_j64948495450525_1_alg».proof.Proof.Gen.Kernel.Skeleton
import proofs.«118612_j64948495450525_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' buffer holds the point's block of rows: it is fetched at every point. Stated for any proof data
    whose array is the entry contents and whose body leaves the block in place. -/
theorem found_rows {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight's buffer holds the whole weight at every point: fetched at the first, and its block index never moves. -/
theorem found_weight {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's buffer likewise. -/
theorem found_bias {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rRows : Rect S2048x128 := Rect.unit (s := S2048x128) ![0, 0] S2048x128.size inb_S2048x128_S2048x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the result's buffer -/

/-- The result buffer after the body: its one store, the body's arithmetic of the three loaded blocks. -/
def projOut (x0 : Vec F S2048x128 .f32) (x1 : Vec F S128x128 .f32) (x2 : Vec F S1x128 .f32) : Vec F S2048x128 .bf16 :=
  View.canon [⟨rRows, k0_pay1 (View.ld x0 rRows) (View.ld x1 rWeight) (View.ld x2 rBias)⟩]

/-- The one store is of the whole buffer, so it covers it. -/
theorem projCover (p0 : Vec F S2048x128 .bf16) (y : S2048x128.Idx) :
    ∃ pc ∈ ([⟨rRows, p0⟩] : List (View.Piece (Elt F) S2048x128 .bf16)), y ∈ pc.1.set :=
  View.cover_of_tiled [⟨rRows, p0⟩] S2048x128.size (by rfl) y

/-! ## The body's triple -/

set_option maxHeartbeats 1000000 in
/-- The body on whole buffers, the inputs' holding `x0`, `x1`, `x2` and the result's anything, runs to the
    continuation with the inputs' as they were and the result's at `projOut` of them. -/
theorem sound_kernel (c : Dev nD) (E : Set ℕ) (i : grid0.Coords) (arg1 : Memref sig .tc .vmem S2048x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-! ## The pipeline's proof data -/

/-- The proof data of this pipeline on core `c`: the arrays as the region finds them; after the body at point `t` each
    input's buffer at its block and the result's at `projOut` of the three blocks; the invariant carries only what
    the body never touches; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => projOut (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_weight (c : Dev nD) (t : Fin cfg0.N) : (dat V c).after 1 t = blk V c 1 t := by dsimp only [dat]
theorem after_bias (c : Dev nD) (t : Fin cfg0.N) : (dat V c).after 2 t = blk V c 2 t := by dsimp only [dat]
theorem after_out (c : Dev nD) (t : Fin cfg0.N) : (dat V c).after 3 t = projOut (blk V c 0 t) (blk V c 1 t) (blk V c 2 t) := by dsimp only [dat]

theorem before_rows (c : Dev nD) (t : Fin cfg0.N) (d) : (dat V c).before 0 t d = blk V c 0 t :=
  found_rows V (dat V c) (A_eq V c 0) (after_rows V c) t d
theorem before_weight (c : Dev nD) (t : Fin cfg0.N) (d) : (dat V c).before 1 t d = blk V c 1 t :=
  found_weight V (dat V c) (A_eq V c 1) (after_weight V c) t d
theorem before_bias (c : Dev nD) (t : Fin cfg0.N) (d) : (dat V c).before 2 t d = blk V c 2 t :=
  found_bias V (dat V c) (A_eq V c 2) (after_bias V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.BitsPair.lean ====
/-
  The pairwise kernel (the second of the program's two kernel regions) as the pipeline runs it, at any float instance.
  Its grid is 4 × 4 × 4: a batch p, a tile I of 1024 rows and a tile J of 1024 rows. At a point the pipeline hands the
  body FIVE buffers: rows 1024·I … of batch p of the projected array (a block of [1, 1024, 128]), rows 1024·J … of
  the SAME array (another block of [1, 1024, 128]), the squared lengths of the first rows as a column [1, 1024, 1],
  those of the second rows as a row [1, 1, 1024], and a [1, 1024, 1024] buffer for the result tile. The body loads
  the four inputs whole, computes, and stores the result buffer whole; it keeps nothing between points.

  Two of the five windows read ONE array. The pipeline only reads through them, so the core can hold that array once
  and lend each window half of its right to it: the proof data below name the two halves, and everything else is as
  for a kernel whose windows' arrays are distinct.

  What the body finds in an input's buffer is that input's block at the point, fetched there or not (a row tile is
  fetched when I changes, a column tile when J changes), and what it leaves in the result's buffer is one store's
  value, a function of the four blocks: `pairOut`.
-/
import proofs.«118612_j64948495450525_1_alg».proof.Proof.Gen.Kernel.Launch
import proofs.«118612_j64948495450525_1_alg».proof.Proof.Gen.Kernel.Skeleton
import proofs.«118612_j64948495450525_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first row tile's buffer holds the point's block: fetched when the tile changes, found again otherwise. -/
theorem found_rowsI {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The second row tile's buffer likewise. -/
theorem found_rowsJ {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The column of squared lengths likewise. -/
theorem found_sqCol {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The row of squared lengths likewise. -/
theorem found_sqRow {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rTile : Rect S1x1024x128 := Rect.unit (s := S1x1024x128) ![0, 0, 0] S1x1024x128.size inb_S1x1024x128_S1x1024x128_0_0_0
abbrev rCol : Rect S1x1024x1 := Rect.unit (s := S1x1024x1) ![0, 0, 0] S1x1024x1.size inb_S1x1024x1_S1x1024x1_0_0_0
abbrev rRow : Rect S1x1x1024 := Rect.unit (s := S1x1x1024) ![0, 0, 0] S1x1x1024.size inb_S1x1x1024_S1x1x1024_0_0_0
abbrev rOut : Rect S1x1024x1024 := Rect.unit (s := S1x1024x1024) ![0, 0, 0] S1x1024x1024.size inb_S1x1024x1024_S1x1024x1024_0_0_0

/-! ## What the body leaves in the result's buffer -/

/-- The result buffer after the body: its one store, the body's arithmetic of the four loaded blocks. -/
def pairOut (x0 : Vec F S1x1024x128 .bf16) (x1 : Vec F S1x1024x128 .bf16) (x2 : Vec F S1x1024x1 .f32) (x3 : Vec F S1x1x1024 .f32) : Vec F S1x1024x1024 .f32 :=
  View.canon [⟨rOut, k1_pay1 (View.ld x0 rTile) (View.ld x1 rTile) (View.ld x2 rCol) (View.ld x3 rRow)⟩]

/-- The one store is of the whole buffer, so it covers it. -/
theorem pairCover (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole buffers, the inputs' holding `x0` … `x3` and the result's anything, runs to the continuation
    with the inputs' as they were and the result's at `pairOut` of them. -/
theorem sound_kernel (c : Dev nD) (E : Set ℕ) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1 .f32) (harg5 : arg5.IsWhole) (arg6 : Memref sig .tc .vmem S1x1x1024 .f32) (harg6 : arg6.IsWhole) (arg7 : Memref sig .tc .vmem S1x1024x1024 .f32) (harg7 : arg7.IsWhole)
    (x0 : Vec F S1x1024x128 .bf16) (x1 : Vec F S1x1024x128 .bf16) (x2 : Vec F S1x1024x1 .f32) (x3 : Vec F S1x1x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (pairOut x0 x1 x2 x3)) -∗ K ⟨⟩))
      ⊢ wp frame (wpE (defs₀ (F := F)) Variants.none c none) E (cc1__pairwise_kernel i arg3 harg3 arg4 harg4 arg5 harg5 arg6 harg6 arg7 harg7) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (pairCover _)

/-! ## The pipeline's proof data -/

/-- The proof data of this pipeline on core `c`: the arrays as the region finds them; after the body at point `t` each
    input's buffer at its block and the result's at `pairOut` of the four blocks; the invariant carries only what the
    body never touches; nothing owed. The two windows on the projected array hold it at the two halves of the whole
    right to it; every other array is held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => pairOut (blk V c 0 t) (blk V c 1 t) (blk V c 2 t) (blk V c 3 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem after_rowsI (c : Dev nD) (t : Fin cfg1.N) : (dat V c).after 0 t = blk V c 0 t := by dsimp only [dat]
theorem after_rowsJ (c : Dev nD) (t : Fin cfg1.N) : (dat V c).after 1 t = blk V c 1 t := by dsimp only [dat]
theorem after_sqCol (c : Dev nD) (t : Fin cfg1.N) : (dat V c).after 2 t = blk V c 2 t := by dsimp only [dat]
theorem after_sqRow (c : Dev nD) (t : Fin cfg1.N) : (dat V c).after 3 t = blk V c 3 t := by dsimp only [dat]
theorem after_out (c : Dev nD) (t : Fin cfg1.N) : (dat V c).after 4 t = pairOut (blk V c 0 t) (blk V c 1 t) (blk V c 2 t) (blk V c 3 t) := by dsimp only [dat]

theorem before_rowsI (c : Dev nD) (t : Fin cfg1.N) (d) : (dat V c).before 0 t d = blk V c 0 t :=
  found_rowsI V (dat V c) (A_eq V c 0) (after_rowsI V c) t d
theorem before_rowsJ (c : Dev nD) (t : Fin cfg1.N) (d) : (dat V c).before 1 t d = blk V c 1 t :=
  found_rowsJ V (dat V c) (A_eq V c 1) (after_rowsJ V c) t d
theorem before_sqCol (c : Dev nD) (t : Fin cfg1.N) (d) : (dat V c).before 2 t d = blk V c 2 t :=
  found_sqCol V (dat V c) (A_eq V c 2) (after_sqCol V c) t d
theorem before_sqRow (c : Dev nD) (t : Fin cfg1.N) (d) : (dat V c).before 3 t d = blk V c 3 t :=
  found_sqRow V (dat V c) (A_eq V c 3) (after_sqRow V c) t d

/-- The shares the arrays are held at: the projected array's two windows at its two halves, the rest whole. -/
theorem share_rowsI (c : Dev nD) : (dat V c).share 0 = fullShare.left := rfl
theorem share_rowsJ (c : Dev nD) : (dat V c).share 1 = fullShare.right := rfl
theorem share_sqCol (c : Dev nD) : (dat V c).share 2 = fullShare := rfl
theorem share_sqRow (c : Dev nD) : (dat V c).share 3 = fullShare := rfl
theorem share_out (c : Dev nD) : (dat V c).share 4 = fullShare := rfl

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rowsI, before_rowsJ, before_sqCol, before_sqRow]
  rw [show (dat V c).Φ t.succ = (dat V c).Φ t.castSucc from rfl,
    show (dat V c).owesAt () t.succ = (dat V c).owesAt () t.castSucc from rfl,
    after_rowsI, after_rowsJ, after_sqCol, after_sqRow, after_out]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Pair

end
-- ==== Proof.BitsRun.lean ====
/-
  The whole program as the machine runs it: a stretch of host operations (two reshapes), the projection kernel, a
  second stretch (a reshape, the squares, their row sums in two layouts), the pairwise kernel. Between two items the
  core holds every buffer that outlives a kernel at known contents: the launch contents, then each host stretch
  applied, then — at the one buffer a kernel writes — what that kernel's write-backs leave.

  A kernel region is entered by splitting its windows' arrays out of those buffers and left by putting them back.
  For the projection kernel the arrays are four distinct buffers. The pairwise kernel reads ONE buffer (the projected
  rows) through TWO windows: at entry that buffer's whole right is split into its two halves, one per window; at exit
  the halves, still at the contents they were lent at since nothing writes through an input window, are joined again.
-/
import proofs.«118612_j64948495450525_1_alg».proof.Proof.BitsProj
import proofs.«118612_j64948495450525_1_alg».proof.Proof.BitsPair
import proofs.«118612_j64948495450525_1_alg».proof.Proof.Gen.Kernel.Regions
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the two regions' entries, and what the regions leave -/

/-- The core's buffers when the projection kernel is entered: the launch contents after the first host stretch. -/
abbrev atProj (c : Dev nD) (b : Ref sig .tc) : Buf (Elt F) ((c : Thread nD τ).loc b) := V1 m c b

/-- The projected rows as the projection kernel's write-backs leave them. -/
def projArr (c : Dev nD) : Buf (Elt F) ((c : Thread nD τ).loc main_v2) := (Proj.dat (atProj m) c).arrAt 3 cfg0.N

/-- What the regions leave, with only the projection kernel's result filled in (every other entry is never read). -/
def outsP : Outs (F := F) := fun _ r c =>
  Function.update (fun r : Ref sig .tc => (m ((c : Thread nD τ).loc r) : Buf (Elt F) ((c : Thread nD τ).loc r))) main_v2 (projArr m c) r

theorem outsP_v2 (J : ℕ) (c : Dev nD) : outsP m J main_v2 c = projArr m c := by
  unfold outsP; exact Function.update_self ..

/-- The core's buffers when the pairwise kernel is entered: the projected rows in place, then the second host stretch. -/
abbrev atPair (c : Dev nD) (b : Ref sig .tc) : Buf (Elt F) ((c : Thread nD τ).loc b) := V3 m (outsP m) c b

/-- The result array as the pairwise kernel's write-backs leave it. -/
def pairArr (c : Dev nD) : Buf (Elt F) ((c : Thread nD τ).loc main_v9) := (Pair.dat (atPair m) c).arrAt 4 cfg1.N

/-- What the two regions leave. -/
def outs : Outs (F := F) := fun J r c =>
  Function.update (fun r : Ref sig .tc => outsP m J r c) main_v9 (pairArr m c) r

theorem outs_v2 (J : ℕ) (c : Dev nD) : outs m J main_v2 c = projArr m c := by
  unfold outs; rw [Function.update_of_ne (by decide : main_v2 ≠ main_v9)]; exact outsP_v2 m J c

theorem outs_v9 (J : ℕ) (c : Dev nD) : outs m J main_v9 c = pairArr m c := by
  unfold outs; exact Function.update_self ..

/-- Filling in the second kernel's result does not change what the second host stretch starts from. -/
theorem V2_outs (c : Dev nD) : V2 m (outs m) c = V2 m (outsP m) c := by
  show Function.update (V1 m c) _ (outs m 2 main_v2 c) = Function.update (V1 m c) _ (outsP m 2 main_v2 c)
  rw [outs_v2, outsP_v2]

theorem V3_outs (c : Dev nD) : V3 m (outs m) c = V3 m (outsP m) c := by
  show StableHlo.after hostOps1 (V2 m (outs m) c) = StableHlo.after hostOps1 (V2 m (outsP m) c)
  rw [V2_outs]

/-! ## The proof data of both pipelines, and what rides along -/

/-- Each pipeline's proof data at its region's entry contents. -/
def pdats : (p : Fin 2) → (c : Dev nD) → Dat τ (Elt F) Unit ℕ (UR sig nD τ) ℕ (cfgs p) c
  | ⟨0, _⟩ => fun c => Proj.dat (atProj m) c
  | ⟨1, _⟩ => fun c => Pair.dat (atPair m) c

abbrev 𝒱₀ : Variants := Variants.none
/-- No core owes another anything. -/
abbrev L : GSem nD τ sig → Finset Unit := fun _ => ∅
abbrev lv : GSem nD τ sig → Unit → ℕ := fun _ _ => 0

/-- Beside the buffers, through every item: the core's generator register at some state, and that it owes nothing. -/
abbrev rest (c : Dev nD) : sProp 𝕄 := iprop((∃ r, prngReg c r) ∗ ∃ W, owes (c : Thread nD τ) (0 : CellTallies nD τ sig Unit) W)
abbrev E : Fin 3 → Dev nD → sProp 𝕄 := fun _ c => rest c

/-! ## The projection kernel as a segment -/

/-- At the projection kernel's exit its three input arrays are as entered and the projected rows are what it wrote. -/
theorem proj_arrays_exit (c : Dev nD) (w : Fin cfg0.W) :
    (pdats m 0 c).arrAt w cfg0.N = (fun b : Ref sig .tc => (V2 m (outs m) c b : Buf (Elt F) ((c : Thread nD τ).loc b))) (Pipeline.arrRef spec0 w) :=
  match w with
  | ⟨0, _⟩ => (((pdats m 0 c).arrAt_in 0 rfl _).trans (Proj.A_eq (atProj m) c 0)).trans (V2_of m (outs m) c main_v0 (by decide)).symm
  | ⟨1, _⟩ => (((pdats m 0 c).arrAt_in 1 rfl _).trans (Proj.A_eq (atProj m) c 1)).trans (V2_of m (outs m) c main_arg1 (by decide)).symm
  | ⟨2, _⟩ => (((pdats m 0 c).arrAt_in 2 rfl _).trans (Proj.A_eq (atProj m) c 2)).trans (V2_of m (outs m) c main_v1 (by decide)).symm
  | ⟨3, _⟩ => ((outs_v2 m 2 c).symm.trans (by simp only [V2, Function.update_self]))

/-- Every buffer that is none of its arrays is as entered. -/
theorem proj_rest_exit (c : Dev nD) : ∀ b : Ref sig .tc, b ∉ Finset.univ.image (Pipeline.arrRef spec0) →
    (V2 m (outs m) c b : Buf (Elt F) ((c : Thread nD τ).loc b)) = V1 m c b :=
  fun b hb => V2_of m (outs m) c b fun h => hb (by
    rw [List.mem_singleton] at h; subst h
    exact Finset.mem_image.mpr ⟨3, Finset.mem_univ _, rfl⟩)

set_option backward.isDefEq.respectTransparency.types false in
/-- The projection kernel's region: entered from every buffer at the first stretch's result, left with the projected
    rows written. Its arrays are split out of the buffers and put back; the generator register goes through the
    pipeline's invariant untouched; nothing is owed; the kernel has no semaphore of its own. -/
def regProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (atProj m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (atProj m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atProj m c) (fun b => V2 m (outs m) c b) ((pdats m 0 c).arrAt · cfg0.N) (proj_arrays_exit m c) (proj_rest_exit m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise kernel as a segment -/

/-- The four distinct buffers behind the pairwise kernel's five windows, each held whole, ARE the pipeline's five
    arrays at the same contents: the projected rows' whole right is the sum of its two halves, one per window on
    that buffer; the two squared-length layouts and the result are held whole by one window each. -/
theorem pair_arrays_iff (c : Dev nD) (V : (b : Ref sig .tc) → Buf (Elt F) ((c : Thread nD τ).loc b))
    (dat : Dat τ (Elt F) Unit ℕ (UR sig nD τ) ℕ cfg1 c)
    (h0 : dat.share 0 = fullShare.left) (h1 : dat.share 1 = fullShare.right) (h2 : dat.share 2 = fullShare)
    (h3 : dat.share 3 = fullShare) (h4 : dat.share 4 = fullShare)
    (Fc : (w : Fin cfg1.W) → Buf (Elt F) ((cfg1.win w).arr.view.loc (c.tc : Thread nD τ)))
    (hF : ∀ w, Fc w = V (Pipeline.arrRef spec1 w)) :
    (Pipeline.arrBufs (Ix := Unit) (Name := ℕ) (U := UR sig nD τ) (Lvl := ℕ) spec1 c V : sProp 𝕄) ⊣⊢ dat.arrays Fc := by
  have hbufs : (Pipeline.arrBufs (Ix := Unit) (Name := ℕ) (U := UR sig nD τ) (Lvl := ℕ) spec1 c V : sProp 𝕄)
      = iprop((((c.tc : Thread nD τ).loc main_v3) ↦{fullShare} V main_v3) ∗ (((c.tc : Thread nD τ).loc main_v7) ↦{fullShare} V main_v7)
          ∗ (((c.tc : Thread nD τ).loc main_v8) ↦{fullShare} V main_v8) ∗ (((c.tc : Thread nD τ).loc main_v9) ↦{fullShare} V main_v9)) := by
    unfold Pipeline.arrBufs
    exact bigSep_eq_bigSepL_of_eq [main_v3, main_v7, main_v8, main_v9] (by decide) (by decide) _
  rw [hbufs]
  unfold Dat.arrays
  rw [bigSep_W1,
    h0, h1, h2, h3, h4, hF 0, hF 1, hF 2, hF 3, hF 4,
    (arr_whole1 0).set_eq_univ, (arr_whole1 2).set_eq_univ, (arr_whole1 3).set_eq_univ, (arr_whole1 4).set_eq_univ]
  constructor
  · iintro ⟨H3, H7, H8, H9⟩
    ihave H := (pointsTo_share (PosShare.mem_left_op_right fullShare)).1 $$ H3
    icases H with ⟨Ha, Hb⟩
    isplitl [Ha]; · iexact Ha
    isplitl [Hb]; · iexact Hb
    isplitl [H7]; · iexact H7
    isplitl [H8]; · iexact H8
    iexact H9
  · iintro ⟨Ha, Hb, H7, H8, H9⟩
    isplitl [Ha Hb]
    · iapply (pointsTo_share (PosShare.mem_left_op_right fullShare)).2
      isplitl [Ha]; · iexact Ha
      iexact Hb
    isplitl [H7]; · iexact H7
    isplitl [H8]; · iexact H8
    iexact H9

/-- ENTRY: the core's buffers at contents `V` are the pairwise pipeline's arrays at the proof data's entry contents
    (those being read off `V`) and the buffers that are none of its arrays. -/
theorem pair_arrays_of_bufs (c : Dev nD) (dat : Dat τ (Elt F) Unit ℕ (UR sig nD τ) ℕ cfg1 c)
    (h0 : dat.share 0 = fullShare.left) (h1 : dat.share 1 = fullShare.right) (h2 : dat.share 2 = fullShare)
    (h3 : dat.share 3 = fullShare) (h4 : dat.share 4 = fullShare)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest spec1 c V) := by
  rw [Pipeline.unscopedBufs_split₀ cfgs 1 winFacts₀1.arr_unscoped c V]
  exact sep_mono (pair_arrays_iff c V dat h0 h1 h2 h3 h4 dat.A hA).1 .rfl

/-- EXIT: the arrays at contents `Fc` and the other buffers at `V` are the core's buffers at any contents `V'` that has
    the arrays at `Fc` and agrees with `V` off them. The two windows on the projected rows give back the same contents
    (`hF` at both), so their halves join. -/
theorem pair_bufs_of_arrays (c : Dev nD) (dat : Dat τ (Elt F) Unit ℕ (UR sig nD τ) ℕ cfg1 c)
    (h0 : dat.share 0 = fullShare.left) (h1 : dat.share 1 = fullShare.right) (h2 : dat.share 2 = fullShare)
    (h3 : dat.share 3 = fullShare) (h4 : dat.share 4 = fullShare)
    (V V' : (b : Ref sig .tc) → Buf (Elt F) ((c : Thread nD τ).loc b))
    (Fc : (w : Fin cfg1.W) → Buf (Elt F) ((cfg1.win w).arr.view.loc (c.tc : Thread nD τ)))
    (hF : ∀ w, Fc w = V' (Pipeline.arrRef spec1 w))
    (hrest : ∀ b, b ∉ Finset.univ.image (Pipeline.arrRef spec1) → V' b = V b) :
    iprop(dat.arrays Fc ∗ Pipeline.unscopedRest (Ix := Unit) (Name := ℕ) (U := UR sig nD τ) (Lvl := ℕ) spec1 c V) ⊢ (unscopedBufs c V' : sProp 𝕄) := by
  rw [Pipeline.unscopedBufs_split₀ cfgs 1 winFacts₀1.arr_unscoped c V']
  refine sep_mono (pair_arrays_iff c V' dat h0 h1 h2 h3 h4 Fc hF).2 (Entails.of_eq ?_)
  unfold Pipeline.unscopedRest
  exact bigSep_congr fun b hb => by rw [hrest b (Finset.mem_sdiff.mp hb).2]

/-- At the pairwise kernel's exit its four input arrays are as entered and the result is what it wrote. -/
theorem pair_arrays_exit (c : Dev nD) (w : Fin cfg1.W) :
    (pdats m 1 c).arrAt w cfg1.N = (fun b : Ref sig .tc => (V4 m (outs m) c b : Buf (Elt F) ((c : Thread nD τ).loc b))) (Pipeline.arrRef spec1 w) :=
  match w with
  | ⟨0, _⟩ => (((pdats m 1 c).arrAt_in 0 rfl _).trans (Pair.A_eq (atPair m) c 0)).trans
      ((V4_of m (outs m) c main_v3 (by decide)).trans (congrFun (V3_outs m c) _)).symm
  | ⟨1, _⟩ => (((pdats m 1 c).arrAt_in 1 rfl _).trans (Pair.A_eq (atPair m) c 1)).trans
      ((V4_of m (outs m) c main_v3 (by decide)).trans (congrFun (V3_outs m c) _)).symm
  | ⟨2, _⟩ => (((pdats m 1 c).arrAt_in 2 rfl _).trans (Pair.A_eq (atPair m) c 2)).trans
      ((V4_of m (outs m) c main_v7 (by decide)).trans (congrFun (V3_outs m c) _)).symm
  | ⟨3, _⟩ => (((pdats m 1 c).arrAt_in 3 rfl _).trans (Pair.A_eq (atPair m) c 3)).trans
      ((V4_of m (outs m) c main_v8 (by decide)).trans (congrFun (V3_outs m c) _)).symm
  | ⟨4, _⟩ => ((outs_v9 m 4 c).symm.trans (by simp only [V4, Function.update_self]))

/-- Every buffer that is none of its arrays is as entered. -/
theorem pair_rest_exit (c : Dev nD) : ∀ b : Ref sig .tc, b ∉ Finset.univ.image (Pipeline.arrRef spec1) →
    (V4 m (outs m) c b : Buf (Elt F) ((c : Thread nD τ).loc b)) = atPair m c b :=
  fun b hb => (V4_of m (outs m) c b fun h => hb (by
    rw [List.mem_singleton] at h; subst h
    exact Finset.mem_image.mpr ⟨4, Finset.mem_univ _, rfl⟩)).trans (congrFun (V3_outs m c) _)

/-- The last thread state without what is owed: every surviving buffer at the last contents, the generator register at some state. -/
abbrev atEnd (c : Dev nD) : sProp 𝕄 := iprop(StableHlo.held (c : Thread nD τ) (Pipeline.ucRefs τ sig) (V4 m (outs m) c) ∗ ∃ r, prngReg c r)

set_option backward.isDefEq.respectTransparency.types false in
/-- The pairwise kernel's region: entered from every buffer at the second stretch's result, left with the result array
    written. Its arrays are split out of the buffers — the projected rows' right halved between its two windows —
    and put back; the generator register goes through the pipeline's invariant untouched; nothing is owed; the kernel
    has no semaphore of its own. -/
def regPair : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pair.body_obligation (atPair m) c).loose
  hwaits := Pipeline.hwaits_of_owed_zero _ _ _ _ L lv 1 fun _ _ => rfl
  pre c := iprop(StableHlo.held (c : Thread nD τ) (Pipeline.ucRefs τ sig) (V3 m (outsP m) c) ∗ E 1 c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atPair m c)
  hentry c := by
    rw [Pipeline.ownSems0_none]
    have hsplit := pair_arrays_of_bufs c (pdats m 1 c) rfl rfl rfl rfl rfl (atPair m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := pair_bufs_of_arrays c (pdats m 1 c) rfl rfl rfl rfl rfl
      (atPair m c) (fun b => V4 m (outs m) c b) ((pdats m 1 c).arrAt · cfg1.N) (pair_arrays_exit m c) (pair_rest_exit m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

/-- The program's items in order: the first host stretch, the projection kernel, the second host stretch, the pairwise kernel. -/
abbrev items : List (Pipeline.Seg (pcfgs (F := F)) adm (pdats m) () defs₀ 𝒱₀ L lv) :=
  [ .host (seg0 m 𝒱₀ L lv E),
    .region (regProj m),
    .host (seg2 m (outs m) 𝒱₀ L lv E),
    .region (regPair m) ]

/-- The program is the run of its items. -/
theorem main_run (c : Dev nD) : main (F := F) c = Pipeline.Seg.run (items m) := (main_chain c).trans (by chain_rfl)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing faulting,
    and in every final state each buffer that outlives the kernels holds the last contents: the launch contents, the two
    host stretches applied, and at the two buffers the kernels write what their write-backs leave. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c)) (Tₙ := atEnd m)
    (hch := ⟨fun _ => .rfl, fun _ => .rfl, fun _ => .rfl, fun c => Entails.of_eq (by
        show iprop(StableHlo.held (c : Thread nD τ) (Pipeline.ucRefs τ sig) (V3 m (outs m) c) ∗ E 1 c)
          = iprop(StableHlo.held (c : Thread nD τ) (Pipeline.ucRefs τ sig) (V3 m (outsP m) c) ∗ E 1 c)
        rw [V3_outs m c]), fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V4 m (outs m) c) s')
      isplitl [Hh] <;> iassumption)
    (hQ := fun s h => h)

/-- The three argument arrays end as launched: no host operation writes one and no kernel's output window is on one. -/
theorem run_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c)⟩) (run_all m ρ)

/-- The result buffer ends at what the pairwise kernel's write-backs leave, beside the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = pairArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v9 (by decide))).trans ((by simp only [V4, Function.update_self] : V4 m (outs m) c main_v9 = outs m 4 main_v9 c).trans (outs_v9 m 4 c)),
     (h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c)⟩) (run_all m ρ)

end Cert.Kernel.Run

end
-- ==== Proof.IdealProj.lean ====
/-
  The projection kernel (the first of the program's two kernel regions) as the pipeline runs it, at any float
  instance. Its grid has 8 points; at point t the pipeline hands the body rows 2048·t … 2048·t + 2047 of the
  flattened input (a block of [2048, 128]), the whole weight [128, 128] and the bias row [1, 128] — the last two
  never move, so they are fetched once and found again at every later point — and a [2048, 128] buffer for the result.
  The body loads the three inputs whole, computes, and stores the result buffer whole; it keeps nothing between points.

  So what the body finds in an input's buffer is that input's block at the point, fetched there or not, and what it
  leaves in the result's buffer is one store's value, a function of the three blocks: `projOut`. This file states that
  as the body's triple and packs it as the pipeline's proof data and body obligation, at a parameter `V`: the contents of the core's buffers when the region is entered.
-/
import proofs.«118612_j64948495450525_1_alg».proof.Proof.Gen.KernelIdeal.Launch
import proofs.«118612_j64948495450525_1_alg».proof.Proof.Gen.KernelIdeal.Skeleton
import proofs.«118612_j64948495450525_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' buffer holds the point's block of rows: it is fetched at every point. Stated for any proof data
    whose array is the entry contents and whose body leaves the block in place. -/
theorem found_rows {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight's buffer holds the whole weight at every point: fetched at the first, and its block index never moves. -/
theorem found_weight {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's buffer likewise. -/
theorem found_bias {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rRows : Rect S2048x128 := Rect.unit (s := S2048x128) ![0, 0] S2048x128.size inb_S2048x128_S2048x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0

/-! ## What the body leaves in the result's buffer -/

/-- The result buffer after the body: its one store, the body's arithmetic of the three loaded blocks. -/
def projOut (x0 : Vec F S2048x128 .f32) (x1 : Vec F S128x128 .f32) (x2 : Vec F S1x128 .f32) : Vec F S2048x128 .bf16 :=
  View.canon [⟨rRows, k0_pay1 (View.ld x0 rRows) (View.ld x1 rWeight) (View.ld x2 rBias)⟩]

/-- The one store is of the whole buffer, so it covers it. -/
theorem projCover (p0 : Vec F S2048x128 .bf16) (y : S2048x128.Idx) :
    ∃ pc ∈ ([⟨rRows, p0⟩] : List (View.Piece (Elt F) S2048x128 .bf16)), y ∈ pc.1.set :=
  View.cover_of_tiled [⟨rRows, p0⟩] S2048x128.size (by rfl) y

/-! ## The body's triple -/

set_option maxHeartbeats 1000000 in
/-- The body on whole buffers, the inputs' holding `x0`, `x1`, `x2` and the result's anything, runs to the
    continuation with the inputs' as they were and the result's at `projOut` of them. -/
theorem sound_kernel (c : Dev nD) (E : Set ℕ) (i : grid0.Coords) (arg1 : Memref sig .tc .vmem S2048x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2048x128 .bf16) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-! ## The pipeline's proof data -/

/-- The proof data of this pipeline on core `c`: the arrays as the region finds them; after the body at point `t` each
    input's buffer at its block and the result's at `projOut` of the three blocks; the invariant carries only what
    the body never touches; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => projOut (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_weight (c : Dev nD) (t : Fin cfg0.N) : (dat V c).after 1 t = blk V c 1 t := by dsimp only [dat]
theorem after_bias (c : Dev nD) (t : Fin cfg0.N) : (dat V c).after 2 t = blk V c 2 t := by dsimp only [dat]
theorem after_out (c : Dev nD) (t : Fin cfg0.N) : (dat V c).after 3 t = projOut (blk V c 0 t) (blk V c 1 t) (blk V c 2 t) := by dsimp only [dat]

theorem before_rows (c : Dev nD) (t : Fin cfg0.N) (d) : (dat V c).before 0 t d = blk V c 0 t :=
  found_rows V (dat V c) (A_eq V c 0) (after_rows V c) t d
theorem before_weight (c : Dev nD) (t : Fin cfg0.N) (d) : (dat V c).before 1 t d = blk V c 1 t :=
  found_weight V (dat V c) (A_eq V c 1) (after_weight V c) t d
theorem before_bias (c : Dev nD) (t : Fin cfg0.N) (d) : (dat V c).before 2 t d = blk V c 2 t :=
  found_bias V (dat V c) (A_eq V c 2) (after_bias V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weight, before_bias]
  rw [show (dat V c).Φ t.succ = (dat V c).Φ t.castSucc from rfl,
    show (dat V c).owesAt () t.succ = (dat V c).owesAt () t.castSucc from rfl,
    after_rows, after_weight, after_bias, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.IdealPair.lean ====
/-
  The pairwise kernel (the second of the program's two kernel regions) as the pipeline runs it, at any float instance.
  Its grid is 4 × 4 × 4: a batch p, a tile I of 1024 rows and a tile J of 1024 rows. At a point the pipeline hands the
  body FIVE buffers: rows 1024·I … of batch p of the projected array (a block of [1, 1024, 128]), rows 1024·J … of
  the SAME array (another block of [1, 1024, 128]), the squared lengths of the first rows as a column [1, 1024, 1],
  those of the second rows as a row [1, 1, 1024], and a [1, 1024, 1024] buffer for the result tile. The body loads
  the four inputs whole, computes, and stores the result buffer whole; it keeps nothing between points.

  Two of the five windows read ONE array. The pipeline only reads through them, so the core can hold that array once
  and lend each window half of its right to it: the proof data below name the two halves, and everything else is as
  for a kernel whose windows' arrays are distinct.

  What the body finds in an input's buffer is that input's block at the point, fetched there or not (a row tile is
  fetched when I changes, a column tile when J changes), and what it leaves in the result's buffer is one store's
  value, a function of the four blocks: `pairOut`.
-/
import proofs.«118612_j64948495450525_1_alg».proof.Proof.Gen.KernelIdeal.Launch
import proofs.«118612_j64948495450525_1_alg».proof.Proof.Gen.KernelIdeal.Skeleton
import proofs.«118612_j64948495450525_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first row tile's buffer holds the point's block: fetched when the tile changes, found again otherwise. -/
theorem found_rowsI {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The second row tile's buffer likewise. -/
theorem found_rowsJ {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The column of squared lengths likewise. -/
theorem found_sqCol {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The row of squared lengths likewise. -/
theorem found_sqRow {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's accesses: each buffer whole -/

abbrev rTile : Rect S1x1024x128 := Rect.unit (s := S1x1024x128) ![0, 0, 0] S1x1024x128.size inb_S1x1024x128_S1x1024x128_0_0_0
abbrev rCol : Rect S1x1024x1 := Rect.unit (s := S1x1024x1) ![0, 0, 0] S1x1024x1.size inb_S1x1024x1_S1x1024x1_0_0_0
abbrev rRow : Rect S1x1x1024 := Rect.unit (s := S1x1x1024) ![0, 0, 0] S1x1x1024.size inb_S1x1x1024_S1x1x1024_0_0_0
abbrev rOut : Rect S1x1024x1024 := Rect.unit (s := S1x1024x1024) ![0, 0, 0] S1x1024x1024.size inb_S1x1024x1024_S1x1024x1024_0_0_0

/-! ## What the body leaves in the result's buffer -/

/-- The result buffer after the body: its one store, the body's arithmetic of the four loaded blocks. -/
def pairOut (x0 : Vec F S1x1024x128 .bf16) (x1 : Vec F S1x1024x128 .bf16) (x2 : Vec F S1x1024x1 .f32) (x3 : Vec F S1x1x1024 .f32) : Vec F S1x1024x1024 .f32 :=
  View.canon [⟨rOut, k1_pay1 (View.ld x0 rTile) (View.ld x1 rTile) (View.ld x2 rCol) (View.ld x3 rRow)⟩]

/-- The one store is of the whole buffer, so it covers it. -/
theorem pairCover (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole buffers, the inputs' holding `x0` … `x3` and the result's anything, runs to the continuation
    with the inputs' as they were and the result's at `pairOut` of them. -/
theorem sound_kernel (c : Dev nD) (E : Set ℕ) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1 .f32) (harg5 : arg5.IsWhole) (arg6 : Memref sig .tc .vmem S1x1x1024 .f32) (harg6 : arg6.IsWhole) (arg7 : Memref sig .tc .vmem S1x1024x1024 .f32) (harg7 : arg7.IsWhole)
    (x0 : Vec F S1x1024x128 .bf16) (x1 : Vec F S1x1024x128 .bf16) (x2 : Vec F S1x1024x1 .f32) (x3 : Vec F S1x1x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (pairOut x0 x1 x2 x3)) -∗ K ⟨⟩))
      ⊢ wp frame (wpE (defs₀ (F := F)) Variants.none c none) E (cc1__pairwise_kernel i arg3 harg3 arg4 harg4 arg5 harg5 arg6 harg6 arg7 harg7) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (pairCover _)

/-! ## The pipeline's proof data -/

/-- The proof data of this pipeline on core `c`: the arrays as the region finds them; after the body at point `t` each
    input's buffer at its block and the result's at `pairOut` of the four blocks; the invariant carries only what the
    body never touches; nothing owed. The two windows on the projected array hold it at the two halves of the whole
    right to it; every other array is held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => pairOut (blk V c 0 t) (blk V c 1 t) (blk V c 2 t) (blk V c 3 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem after_rowsI (c : Dev nD) (t : Fin cfg1.N) : (dat V c).after 0 t = blk V c 0 t := by dsimp only [dat]
theorem after_rowsJ (c : Dev nD) (t : Fin cfg1.N) : (dat V c).after 1 t = blk V c 1 t := by dsimp only [dat]
theorem after_sqCol (c : Dev nD) (t : Fin cfg1.N) : (dat V c).after 2 t = blk V c 2 t := by dsimp only [dat]
theorem after_sqRow (c : Dev nD) (t : Fin cfg1.N) : (dat V c).after 3 t = blk V c 3 t := by dsimp only [dat]
theorem after_out (c : Dev nD) (t : Fin cfg1.N) : (dat V c).after 4 t = pairOut (blk V c 0 t) (blk V c 1 t) (blk V c 2 t) (blk V c 3 t) := by dsimp only [dat]

theorem before_rowsI (c : Dev nD) (t : Fin cfg1.N) (d) : (dat V c).before 0 t d = blk V c 0 t :=
  found_rowsI V (dat V c) (A_eq V c 0) (after_rowsI V c) t d
theorem before_rowsJ (c : Dev nD) (t : Fin cfg1.N) (d) : (dat V c).before 1 t d = blk V c 1 t :=
  found_rowsJ V (dat V c) (A_eq V c 1) (after_rowsJ V c) t d
theorem before_sqCol (c : Dev nD) (t : Fin cfg1.N) (d) : (dat V c).before 2 t d = blk V c 2 t :=
  found_sqCol V (dat V c) (A_eq V c 2) (after_sqCol V c) t d
theorem before_sqRow (c : Dev nD) (t : Fin cfg1.N) (d) : (dat V c).before 3 t d = blk V c 3 t :=
  found_sqRow V (dat V c) (A_eq V c 3) (after_sqRow V c) t d

/-- The shares the arrays are held at: the projected array's two windows at its two halves, the rest whole. -/
theorem share_rowsI (c : Dev nD) : (dat V c).share 0 = fullShare.left := rfl
theorem share_rowsJ (c : Dev nD) : (dat V c).share 1 = fullShare.right := rfl
theorem share_sqCol (c : Dev nD) : (dat V c).share 2 = fullShare := rfl
theorem share_sqRow (c : Dev nD) : (dat V c).share 3 = fullShare := rfl
theorem share_out (c : Dev nD) : (dat V c).share 4 = fullShare := rfl

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rowsI, before_rowsJ, before_sqCol, before_sqRow]
  rw [show (dat V c).Φ t.succ = (dat V c).Φ t.castSucc from rfl,
    show (dat V c).owesAt () t.succ = (dat V c).owesAt () t.castSucc from rfl,
    after_rowsI, after_rowsJ, after_sqCol, after_sqRow, after_out]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Pair

end
-- ==== Proof.IdealRun.lean ====
/-
  The whole program as the machine runs it: a stretch of host operations (two reshapes), the projection kernel, a
  second stretch (a reshape, the squares, their row sums in two layouts), the pairwise kernel. Between two items the
  core holds every buffer that outlives a kernel at known contents: the launch contents, then each host stretch
  applied, then — at the one buffer a kernel writes — what that kernel's write-backs leave.

  A kernel region is entered by splitting its windows' arrays out of those buffers and left by putting them back.
  For the projection kernel the arrays are four distinct buffers. The pairwise kernel reads ONE buffer (the projected
  rows) through TWO windows: at entry that buffer's whole right is split into its two halves, one per window; at exit
  the halves, still at the contents they were lent at since nothing writes through an input window, are joined again.
-/
import proofs.«118612_j64948495450525_1_alg».proof.Proof.IdealProj
import proofs.«118612_j64948495450525_1_alg».proof.Proof.IdealPair
import proofs.«118612_j64948495450525_1_alg».proof.Proof.Gen.KernelIdeal.Regions
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the two regions' entries, and what the regions leave -/

/-- The core's buffers when the projection kernel is entered: the launch contents after the first host stretch. -/
abbrev atProj (c : Dev nD) (b : Ref sig .tc) : Buf (Elt F) ((c : Thread nD τ).loc b) := V1 m c b

/-- The projected rows as the projection kernel's write-backs leave them. -/
def projArr (c : Dev nD) : Buf (Elt F) ((c : Thread nD τ).loc main_v2) := (Proj.dat (atProj m) c).arrAt 3 cfg0.N

/-- What the regions leave, with only the projection kernel's result filled in (every other entry is never read). -/
def outsP : Outs (F := F) := fun _ r c =>
  Function.update (fun r : Ref sig .tc => (m ((c : Thread nD τ).loc r) : Buf (Elt F) ((c : Thread nD τ).loc r))) main_v2 (projArr m c) r

theorem outsP_v2 (J : ℕ) (c : Dev nD) : outsP m J main_v2 c = projArr m c := by
  unfold outsP; exact Function.update_self ..

/-- The core's buffers when the pairwise kernel is entered: the projected rows in place, then the second host stretch. -/
abbrev atPair (c : Dev nD) (b : Ref sig .tc) : Buf (Elt F) ((c : Thread nD τ).loc b) := V3 m (outsP m) c b

/-- The result array as the pairwise kernel's write-backs leave it. -/
def pairArr (c : Dev nD) : Buf (Elt F) ((c : Thread nD τ).loc main_v9) := (Pair.dat (atPair m) c).arrAt 4 cfg1.N

/-- What the two regions leave. -/
def outs : Outs (F := F) := fun J r c =>
  Function.update (fun r : Ref sig .tc => outsP m J r c) main_v9 (pairArr m c) r

theorem outs_v2 (J : ℕ) (c : Dev nD) : outs m J main_v2 c = projArr m c := by
  unfold outs; rw [Function.update_of_ne (by decide : main_v2 ≠ main_v9)]; exact outsP_v2 m J c

theorem outs_v9 (J : ℕ) (c : Dev nD) : outs m J main_v9 c = pairArr m c := by
  unfold outs; exact Function.update_self ..

/-- Filling in the second kernel's result does not change what the second host stretch starts from. -/
theorem V2_outs (c : Dev nD) : V2 m (outs m) c = V2 m (outsP m) c := by
  show Function.update (V1 m c) _ (outs m 2 main_v2 c) = Function.update (V1 m c) _ (outsP m 2 main_v2 c)
  rw [outs_v2, outsP_v2]

theorem V3_outs (c : Dev nD) : V3 m (outs m) c = V3 m (outsP m) c := by
  show StableHlo.after hostOps1 (V2 m (outs m) c) = StableHlo.after hostOps1 (V2 m (outsP m) c)
  rw [V2_outs]

/-! ## The proof data of both pipelines, and what rides along -/

/-- Each pipeline's proof data at its region's entry contents. -/
def pdats : (p : Fin 2) → (c : Dev nD) → Dat τ (Elt F) Unit ℕ (UR sig nD τ) ℕ (cfgs p) c
  | ⟨0, _⟩ => fun c => Proj.dat (atProj m) c
  | ⟨1, _⟩ => fun c => Pair.dat (atPair m) c

abbrev 𝒱₀ : Variants := Variants.none
/-- No core owes another anything. -/
abbrev L : GSem nD τ sig → Finset Unit := fun _ => ∅
abbrev lv : GSem nD τ sig → Unit → ℕ := fun _ _ => 0

/-- Beside the buffers, through every item: the core's generator register at some state, and that it owes nothing. -/
abbrev rest (c : Dev nD) : sProp 𝕄 := iprop((∃ r, prngReg c r) ∗ ∃ W, owes (c : Thread nD τ) (0 : CellTallies nD τ sig Unit) W)
abbrev E : Fin 3 → Dev nD → sProp 𝕄 := fun _ c => rest c

/-! ## The projection kernel as a segment -/

/-- At the projection kernel's exit its three input arrays are as entered and the projected rows are what it wrote. -/
theorem proj_arrays_exit (c : Dev nD) (w : Fin cfg0.W) :
    (pdats m 0 c).arrAt w cfg0.N = (fun b : Ref sig .tc => (V2 m (outs m) c b : Buf (Elt F) ((c : Thread nD τ).loc b))) (Pipeline.arrRef spec0 w) :=
  match w with
  | ⟨0, _⟩ => (((pdats m 0 c).arrAt_in 0 rfl _).trans (Proj.A_eq (atProj m) c 0)).trans (V2_of m (outs m) c main_v0 (by decide)).symm
  | ⟨1, _⟩ => (((pdats m 0 c).arrAt_in 1 rfl _).trans (Proj.A_eq (atProj m) c 1)).trans (V2_of m (outs m) c main_arg1 (by decide)).symm
  | ⟨2, _⟩ => (((pdats m 0 c).arrAt_in 2 rfl _).trans (Proj.A_eq (atProj m) c 2)).trans (V2_of m (outs m) c main_v1 (by decide)).symm
  | ⟨3, _⟩ => ((outs_v2 m 2 c).symm.trans (by simp only [V2, Function.update_self]))

/-- Every buffer that is none of its arrays is as entered. -/
theorem proj_rest_exit (c : Dev nD) : ∀ b : Ref sig .tc, b ∉ Finset.univ.image (Pipeline.arrRef spec0) →
    (V2 m (outs m) c b : Buf (Elt F) ((c : Thread nD τ).loc b)) = V1 m c b :=
  fun b hb => V2_of m (outs m) c b fun h => hb (by
    rw [List.mem_singleton] at h; subst h
    exact Finset.mem_image.mpr ⟨3, Finset.mem_univ _, rfl⟩)

set_option backward.isDefEq.respectTransparency.types false in
/-- The projection kernel's region: entered from every buffer at the first stretch's result, left with the projected
    rows written. Its arrays are split out of the buffers and put back; the generator register goes through the
    pipeline's invariant untouched; nothing is owed; the kernel has no semaphore of its own. -/
def regProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (atProj m) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (atProj m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atProj m c) (fun b => V2 m (outs m) c b) ((pdats m 0 c).arrAt · cfg0.N) (proj_arrays_exit m c) (proj_rest_exit m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise kernel as a segment -/

/-- The four distinct buffers behind the pairwise kernel's five windows, each held whole, ARE the pipeline's five
    arrays at the same contents: the projected rows' whole right is the sum of its two halves, one per window on
    that buffer; the two squared-length layouts and the result are held whole by one window each. -/
theorem pair_arrays_iff (c : Dev nD) (V : (b : Ref sig .tc) → Buf (Elt F) ((c : Thread nD τ).loc b))
    (dat : Dat τ (Elt F) Unit ℕ (UR sig nD τ) ℕ cfg1 c)
    (h0 : dat.share 0 = fullShare.left) (h1 : dat.share 1 = fullShare.right) (h2 : dat.share 2 = fullShare)
    (h3 : dat.share 3 = fullShare) (h4 : dat.share 4 = fullShare)
    (Fc : (w : Fin cfg1.W) → Buf (Elt F) ((cfg1.win w).arr.view.loc (c.tc : Thread nD τ)))
    (hF : ∀ w, Fc w = V (Pipeline.arrRef spec1 w)) :
    (Pipeline.arrBufs (Ix := Unit) (Name := ℕ) (U := UR sig nD τ) (Lvl := ℕ) spec1 c V : sProp 𝕄) ⊣⊢ dat.arrays Fc := by
  have hbufs : (Pipeline.arrBufs (Ix := Unit) (Name := ℕ) (U := UR sig nD τ) (Lvl := ℕ) spec1 c V : sProp 𝕄)
      = iprop((((c.tc : Thread nD τ).loc main_v3) ↦{fullShare} V main_v3) ∗ (((c.tc : Thread nD τ).loc main_v7) ↦{fullShare} V main_v7)
          ∗ (((c.tc : Thread nD τ).loc main_v8) ↦{fullShare} V main_v8) ∗ (((c.tc : Thread nD τ).loc main_v9) ↦{fullShare} V main_v9)) := by
    unfold Pipeline.arrBufs
    exact bigSep_eq_bigSepL_of_eq [main_v3, main_v7, main_v8, main_v9] (by decide) (by decide) _
  rw [hbufs]
  unfold Dat.arrays
  rw [bigSep_W1,
    h0, h1, h2, h3, h4, hF 0, hF 1, hF 2, hF 3, hF 4,
    (arr_whole1 0).set_eq_univ, (arr_whole1 2).set_eq_univ, (arr_whole1 3).set_eq_univ, (arr_whole1 4).set_eq_univ]
  constructor
  · iintro ⟨H3, H7, H8, H9⟩
    ihave H := (pointsTo_share (PosShare.mem_left_op_right fullShare)).1 $$ H3
    icases H with ⟨Ha, Hb⟩
    isplitl [Ha]; · iexact Ha
    isplitl [Hb]; · iexact Hb
    isplitl [H7]; · iexact H7
    isplitl [H8]; · iexact H8
    iexact H9
  · iintro ⟨Ha, Hb, H7, H8, H9⟩
    isplitl [Ha Hb]
    · iapply (pointsTo_share (PosShare.mem_left_op_right fullShare)).2
      isplitl [Ha]; · iexact Ha
      iexact Hb
    isplitl [H7]; · iexact H7
    isplitl [H8]; · iexact H8
    iexact H9

/-- ENTRY: the core's buffers at contents `V` are the pairwise pipeline's arrays at the proof data's entry contents
    (those being read off `V`) and the buffers that are none of its arrays. -/
theorem pair_arrays_of_bufs (c : Dev nD) (dat : Dat τ (Elt F) Unit ℕ (UR sig nD τ) ℕ cfg1 c)
    (h0 : dat.share 0 = fullShare.left) (h1 : dat.share 1 = fullShare.right) (h2 : dat.share 2 = fullShare)
    (h3 : dat.share 3 = fullShare) (h4 : dat.share 4 = fullShare)
    (V : (b : Ref sig .tc) → Buf (Elt F) ((c : Thread nD τ).loc b)) (hA : ∀ w, dat.A w = V (Pipeline.arrRef spec1 w)) :
    (unscopedBufs c V : sProp 𝕄) ⊢ iprop(dat.arrays dat.A ∗ Pipeline.unscopedRest spec1 c V) := by
  rw [Pipeline.unscopedBufs_split₀ cfgs 1 winFacts₀1.arr_unscoped c V]
  exact sep_mono (pair_arrays_iff c V dat h0 h1 h2 h3 h4 dat.A hA).1 .rfl

/-- EXIT: the arrays at contents `Fc` and the other buffers at `V` are the core's buffers at any contents `V'` that has
    the arrays at `Fc` and agrees with `V` off them. The two windows on the projected rows give back the same contents
    (`hF` at both), so their halves join. -/
theorem pair_bufs_of_arrays (c : Dev nD) (dat : Dat τ (Elt F) Unit ℕ (UR sig nD τ) ℕ cfg1 c)
    (h0 : dat.share 0 = fullShare.left) (h1 : dat.share 1 = fullShare.right) (h2 : dat.share 2 = fullShare)
    (h3 : dat.share 3 = fullShare) (h4 : dat.share 4 = fullShare)
    (V V' : (b : Ref sig .tc) → Buf (Elt F) ((c : Thread nD τ).loc b))
    (Fc : (w : Fin cfg1.W) → Buf (Elt F) ((cfg1.win w).arr.view.loc (c.tc : Thread nD τ)))
    (hF : ∀ w, Fc w = V' (Pipeline.arrRef spec1 w))
    (hrest : ∀ b, b ∉ Finset.univ.image (Pipeline.arrRef spec1) → V' b = V b) :
    iprop(dat.arrays Fc ∗ Pipeline.unscopedRest (Ix := Unit) (Name := ℕ) (U := UR sig nD τ) (Lvl := ℕ) spec1 c V) ⊢ (unscopedBufs c V' : sProp 𝕄) := by
  rw [Pipeline.unscopedBufs_split₀ cfgs 1 winFacts₀1.arr_unscoped c V']
  refine sep_mono (pair_arrays_iff c V' dat h0 h1 h2 h3 h4 Fc hF).2 (Entails.of_eq ?_)
  unfold Pipeline.unscopedRest
  exact bigSep_congr fun b hb => by rw [hrest b (Finset.mem_sdiff.mp hb).2]

/-- At the pairwise kernel's exit its four input arrays are as entered and the result is what it wrote. -/
theorem pair_arrays_exit (c : Dev nD) (w : Fin cfg1.W) :
    (pdats m 1 c).arrAt w cfg1.N = (fun b : Ref sig .tc => (V4 m (outs m) c b : Buf (Elt F) ((c : Thread nD τ).loc b))) (Pipeline.arrRef spec1 w) :=
  match w with
  | ⟨0, _⟩ => (((pdats m 1 c).arrAt_in 0 rfl _).trans (Pair.A_eq (atPair m) c 0)).trans
      ((V4_of m (outs m) c main_v3 (by decide)).trans (congrFun (V3_outs m c) _)).symm
  | ⟨1, _⟩ => (((pdats m 1 c).arrAt_in 1 rfl _).trans (Pair.A_eq (atPair m) c 1)).trans
      ((V4_of m (outs m) c main_v3 (by decide)).trans (congrFun (V3_outs m c) _)).symm
  | ⟨2, _⟩ => (((pdats m 1 c).arrAt_in 2 rfl _).trans (Pair.A_eq (atPair m) c 2)).trans
      ((V4_of m (outs m) c main_v7 (by decide)).trans (congrFun (V3_outs m c) _)).symm
  | ⟨3, _⟩ => (((pdats m 1 c).arrAt_in 3 rfl _).trans (Pair.A_eq (atPair m) c 3)).trans
      ((V4_of m (outs m) c main_v8 (by decide)).trans (congrFun (V3_outs m c) _)).symm
  | ⟨4, _⟩ => ((outs_v9 m 4 c).symm.trans (by simp only [V4, Function.update_self]))

/-- Every buffer that is none of its arrays is as entered. -/
theorem pair_rest_exit (c : Dev nD) : ∀ b : Ref sig .tc, b ∉ Finset.univ.image (Pipeline.arrRef spec1) →
    (V4 m (outs m) c b : Buf (Elt F) ((c : Thread nD τ).loc b)) = atPair m c b :=
  fun b hb => (V4_of m (outs m) c b fun h => hb (by
    rw [List.mem_singleton] at h; subst h
    exact Finset.mem_image.mpr ⟨4, Finset.mem_univ _, rfl⟩)).trans (congrFun (V3_outs m c) _)

/-- The last thread state without what is owed: every surviving buffer at the last contents, the generator register at some state. -/
abbrev atEnd (c : Dev nD) : sProp 𝕄 := iprop(StableHlo.held (c : Thread nD τ) (Pipeline.ucRefs τ sig) (V4 m (outs m) c) ∗ ∃ r, prngReg c r)

set_option backward.isDefEq.respectTransparency.types false in
/-- The pairwise kernel's region: entered from every buffer at the second stretch's result, left with the result array
    written. Its arrays are split out of the buffers — the projected rows' right halved between its two windows —
    and put back; the generator register goes through the pipeline's invariant untouched; nothing is owed; the kernel
    has no semaphore of its own. -/
def regPair : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Pair.body_obligation (atPair m) c).loose
  hwaits := Pipeline.hwaits_of_owed_zero _ _ _ _ L lv 1 fun _ _ => rfl
  pre c := iprop(StableHlo.held (c : Thread nD τ) (Pipeline.ucRefs τ sig) (V3 m (outsP m) c) ∗ E 1 c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atPair m c)
  hentry c := by
    rw [Pipeline.ownSems0_none]
    have hsplit := pair_arrays_of_bufs c (pdats m 1 c) rfl rfl rfl rfl rfl (atPair m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := pair_bufs_of_arrays c (pdats m 1 c) rfl rfl rfl rfl rfl
      (atPair m c) (fun b => V4 m (outs m) c b) ((pdats m 1 c).arrAt · cfg1.N) (pair_arrays_exit m c) (pair_rest_exit m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four segments, and the run -/

/-- The program's items in order: the first host stretch, the projection kernel, the second host stretch, the pairwise kernel. -/
abbrev items : List (Pipeline.Seg (pcfgs (F := F)) adm (pdats m) () defs₀ 𝒱₀ L lv) :=
  [ .host (seg0 m 𝒱₀ L lv E),
    .region (regProj m),
    .host (seg2 m (outs m) 𝒱₀ L lv E),
    .region (regPair m) ]

/-- The program is the run of its items. -/
theorem main_run (c : Dev nD) : main (F := F) c = Pipeline.Seg.run (items m) := (main_chain c).trans (by chain_rfl)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing faulting,
    and in every final state each buffer that outlives the kernels holds the last contents: the launch contents, the two
    host stretches applied, and at the two buffers the kernels write what their write-backs leave. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c)) (Tₙ := atEnd m)
    (hch := ⟨fun _ => .rfl, fun _ => .rfl, fun _ => .rfl, fun c => Entails.of_eq (by
        show iprop(StableHlo.held (c : Thread nD τ) (Pipeline.ucRefs τ sig) (V3 m (outs m) c) ∗ E 1 c)
          = iprop(StableHlo.held (c : Thread nD τ) (Pipeline.ucRefs τ sig) (V3 m (outsP m) c) ∗ E 1 c)
        rw [V3_outs m c]), fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V4 m (outs m) c) s')
      isplitl [Hh] <;> iassumption)
    (hQ := fun s h => h)

/-- The three argument arrays end as launched: no host operation writes one and no kernel's output window is on one. -/
theorem run_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c)⟩) (run_all m ρ)

/-- The result buffer ends at what the pairwise kernel's write-backs leave, beside the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = pairArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v9 (by decide))).trans ((by simp only [V4, Function.update_self] : V4 m (outs m) c main_v9 = outs m 4 main_v9 c).trans (outs_v9 m 4 c)),
     (h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c)⟩) (run_all m ρ)

end Cert.KernelIdeal.Run

end
-- ==== Proof.Spec.lean ====
/-
  The mathematical content of the pairwise-similarity computation, as ONE function of the three argument arrays,
  entry by entry, over the extended reals.

  With x : [4, 4096, 128], W : [128, 128], b : [128]:
    proj  p n e = (Σ_d x[p,n,d] · W[e,d]) + b[e]                 the linear projection of row n of batch p
    sqn   p n   = Σ_e (proj p n e)²                               its squared length
    gram  p i j = Σ_e proj p i e · proj p j e                     the inner product of two projected rows
    entry p i j = exp( −√(max((sqn p i + sqn p j) − 2·gram p i j, 0)) · 1 )
  Both programs compute exactly this, with this grouping of the additions; they differ only in how the arrays are
  cut into blocks and in which primitive forms each sum. Sums over a finite index set do not depend on an order, so
  no finiteness of the entries is needed to identify the two sides.
  The float literals 2, 0 (inside the maximum) and 1 are kept as the words both programs spell.
-/
import Idealize.ShloMosaic.PureOps.Ideal
import Idealize.ShloMosaic.Lib.ValueIdx

noncomputable section

open scoped BigOperators

namespace Cert.Pairwise

open Idealize.ShloMosaic Idealize.ShloMosaic.ValueIdx

/-- The three argument shapes and the result's. -/
abbrev SX : Shape := ⟨3, ![4, 4096, 128]⟩
abbrev SW : Shape := ⟨2, ![128, 128]⟩
abbrev SB : Shape := ⟨1, ![128]⟩
abbrev SO : Shape := ⟨3, ![4, 4096, 4096]⟩

variable (x : FVec Ideal SX .f32) (W : FVec Ideal SW .f32) (b : FVec Ideal SB .f32)

/-- Feature `e` of the projection of row `n` of batch `p`: the row against row `e` of the weight, plus the bias. -/
def proj (p : Fin 4) (n : Fin 4096) (e : Fin 128) : EReal :=
  (∑ d : Fin 128, x (ix3 p n d) * W (ix2 e d)) + b (ix1 e)

/-- The squared length of the projected row. -/
def sqn (p : Fin 4) (n : Fin 4096) : EReal :=
  ∑ e : Fin 128, proj x W b p n e * proj x W b p n e

/-- The inner product of projected rows `i` and `j` of one batch. -/
def gram (p : Fin 4) (i j : Fin 4096) : EReal :=
  ∑ e : Fin 128, proj x W b p i e * proj x W b p j e

/-- One entry of the result: the exponential of minus the distance between projected rows `i` and `j`, the squared
    distance clamped at zero before the root. -/
def entry (p : Fin 4) (i j : Fin 4096) : EReal :=
  Ideal.exp ((-(Ideal.sqrt (max ((sqn x W b p i + sqn x W b p j)
      - Ideal.ofBits .f32 0x40000000#32 * gram x W b p i j) (Ideal.ofBits .f32 0x00000000#32))))
    * Ideal.ofBits .f32 0x3F800000#32)

/-- The whole result array. -/
def G : FVec Ideal SO .f32 := fun o => entry x W b (o 0) (o 1) (o 2)

/-- The result read at coordinates. -/
theorem G_ix3 (p : Fin 4) (i j : Fin 4096) : G x W b (ix3 p i j) = entry x W b p i j := rfl

end Cert.Pairwise

end
-- ==== Proof.RefSide.lean ====
/-
  The reference program read entry by entry.

  The reference forms h = x·Wᵀ + b with one contraction and a broadcast bias, the squared lengths of the rows of h
  with a sum over the last axis, the inner products of the rows of one batch with a second contraction, and then,
  entry by entry, exp(−√(max(|h_i|² + |h_j|² − 2·h_i·h_j, 0)) · 1). Each stage is read at an index whose coordinates
  are named, so that the stage's own index arithmetic (drop a unit axis, repeat along an axis, pair a row with a
  contracted position) becomes a statement about coordinates; chained, the stages give the entry of Spec.
-/
import proofs.«118612_j64948495450525_1_alg».proof.Proof.Gen.ReferenceIdeal.Read
import proofs.«118612_j64948495450525_1_alg».proof.Proof.Spec
import proofs.«118612_j64948495450525_1_alg».proof.Defs
import proofs.«118612_j64948495450525_1_alg».proof.Proof.Gen.Pre_finite_inputs

noncomputable section

open scoped BigOperators

namespace Cert.ReferenceIdeal.RefValue

open Idealize.ShloMosaic Idealize.ShloMosaic.ValueIdx Cert.ReferenceIdeal Cert.ReferenceIdeal.Read Cert.Pairwise

variable (x : FVec Ideal SX .f32) (W : FVec Ideal SW .f32) (b : FVec Ideal SB .f32)

/-! ## Where each stage reads its operands -/

/-- The first contraction pairs entry (p, n, e) with row (p, n) of x at position k … -/
theorem lidx_v0 (p : Fin 4) (n : Fin 4096) (e k : Fin 128) : lidx_main_v0 (ix3 p n e) k = ix3 p n k :=
  funext fun a => by match a with | ⟨0, _⟩ => rfl | ⟨1, _⟩ => rfl | ⟨2, _⟩ => rfl

/-- … and with row e of the weight at the same position: the weight is used transposed. -/
theorem ridx_v0 (p : Fin 4) (n : Fin 4096) (e k : Fin 128) : ridx_main_v0 (ix3 p n e) k = ix2 e k :=
  funext fun a => by match a with | ⟨0, _⟩ => rfl | ⟨1, _⟩ => rfl

/-- The bias, repeated over batches and rows, is read at the feature coordinate alone. -/
theorem idx_v1_v2 (p : Fin 4) (n : Fin 4096) (e : Fin 128) : idx_main_v1 (idx_main_v2 (ix3 p n e)) = ix1 e :=
  funext fun a => by match a with | ⟨0, _⟩ => rfl

/-- The sum over the last axis runs over the features of one row. -/
theorem idx_v5 (p : Fin 4) (n : Fin 4096) (k : Fin 128) : idx_main_v5 (ix2 p n) k = ix3 p n k :=
  funext fun a => by match a with | ⟨0, _⟩ => rfl | ⟨1, _⟩ => rfl | ⟨2, _⟩ => rfl

/-- The second contraction, batched over p, pairs entry (p, i, j) with row i … -/
theorem lidx_v6 (p : Fin 4) (i j : Fin 4096) (k : Fin 128) : lidx_main_v6 (ix3 p i j) k = ix3 p i k :=
  funext fun a => by match a with | ⟨0, _⟩ => rfl | ⟨1, _⟩ => rfl | ⟨2, _⟩ => rfl

/-- … and with row j of the same batch. -/
theorem ridx_v6 (p : Fin 4) (i j : Fin 4096) (k : Fin 128) : ridx_main_v6 (ix3 p i j) k = ix3 p j k :=
  funext fun a => by match a with | ⟨0, _⟩ => rfl | ⟨1, _⟩ => rfl | ⟨2, _⟩ => rfl

/-- The squared lengths laid out as a column and repeated along the last axis: entry (p, i, j) reads row i. -/
theorem idx_v7_v9 (p : Fin 4) (i j : Fin 4096) : idx_main_v7 (idx_main_v9 (ix3 p i j)) = ix2 p i :=
  funext fun a => by match a with | ⟨0, _⟩ => rfl | ⟨1, _⟩ => rfl

/-- The squared lengths laid out as a row and repeated along the middle axis: entry (p, i, j) reads row j. -/
theorem idx_v8_v10 (p : Fin 4) (i j : Fin 4096) : idx_main_v8 (idx_main_v10 (ix3 p i j)) = ix2 p j :=
  funext fun a => by match a with | ⟨0, _⟩ => rfl | ⟨1, _⟩ => rfl

/-! ## The stages -/

/-- The projected rows: h[p, n, e] = Σ_d x[p, n, d] · W[e, d] + b[e]. -/
theorem v3_eq (p : Fin 4) (n : Fin 4096) (e : Fin 128) :
    val_main_v3 (F := Ideal) x W b (ix3 p n e) = proj x W b p n e := by
  rw [val_main_v3_apply, val_main_v0_apply, val_main_v2_apply, val_main_v1_apply, idx_v1_v2, Ideal.addf_def]
  unfold proj
  refine congrArg (· + b (ix1 e)) (Finset.sum_congr rfl fun k _ => ?_)
  rw [lidx_v0, ridx_v0]

/-- The squared length of a projected row: the sum starts from the zero word, which adds nothing. -/
theorem v5_eq (p : Fin 4) (n : Fin 4096) :
    val_main_v5 (F := Ideal) x W b (ix2 p n) = sqn x W b p n := by
  rw [val_main_v5_apply, val_main_cst_apply, Ideal.ofBits_def, Ideal.ofBits_zero_f32, zero_add]
  unfold sqn
  refine Finset.sum_congr rfl fun k _ => ?_
  rw [val_main_v4_apply, idx_v5, v3_eq, Ideal.mulf_def]

/-- The inner product of two projected rows of one batch. -/
theorem v6_eq (p : Fin 4) (i j : Fin 4096) :
    val_main_v6 (F := Ideal) x W b (ix3 p i j) = gram x W b p i j := by
  rw [val_main_v6_apply]
  unfold gram
  refine Finset.sum_congr rfl fun k _ => ?_
  rw [lidx_v6, ridx_v6, v3_eq, v3_eq]

/-- One entry of the reference's result is the entry of the specification: the pointwise tail (add the two squared
    lengths, subtract twice the inner product, clamp at zero, root, negate, scale by one, exponentiate) is applied
    to the three sums just read. -/
theorem v21_eq (p : Fin 4) (i j : Fin 4096) :
    val_main_v21 (F := Ideal) x W b (ix3 p i j) = entry x W b p i j := by
  rw [val_main_v21_apply, val_main_v20_apply, val_main_v18_apply, val_main_v17_apply, val_main_v16_apply,
    val_main_v14_apply, val_main_v11_apply, val_main_v9_apply, val_main_v7_apply, val_main_v10_apply,
    val_main_v8_apply, val_main_v13_apply, val_main_v12_apply, val_main_cst_0_apply, val_main_v15_apply,
    val_main_cst_1_apply, val_main_v19_apply, val_main_cst_2_apply, idx_v7_v9, idx_v8_v10, v5_eq, v5_eq, v6_eq]
  rfl

/-- The reference's result array is the specification's. -/
theorem val_eq_G : val_main_v21 (F := Ideal) x W b = G x W b := by
  funext o
  obtain ⟨p, i, j, rfl⟩ : ∃ (p : Fin 4) (i j : Fin 4096), o = ix3 p i j := ⟨o 0, o 1, o 2, eq_ix3 o⟩
  rw [G_ix3]
  exact v21_eq x W b p i j

/-! ## The run -/

open Idealize.ShloMosaic.TcCoe Idealize.SL.Sem in
/-- From any memory with zero counters every weakly fair execution of the reference terminates with the result
    array equal to the specification's function of the three argument arrays as they were at the start, and with
    the argument arrays unchanged: the generated run gives the result as the composed term of the operations, that
    term is the last stage, and the last stage is the specification. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v21)
          = G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v21_eq _ _ _).trans (val_eq_G _ _ _)), (h c).2⟩)
    (Cert.ReferenceIdeal.Value.run (F := Ideal) m' ρ')

open Idealize.SL.Sem in
/-- The reference terminates with its argument arrays unchanged: the run above with the result forgotten. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.KHost.lean ====
/-
  The host operations around the two kernel regions, read one entry at a time over the extended reals.

  Before the first region the host only re-lays two arguments: the [4, 4096, 128] input becomes the [16384, 128] array of
  all rows (row n of batch p is row p · 4096 + n), and the [128] bias becomes a [1, 128] row. The weight is not touched.
  Between the regions it re-lays the first region's [16384, 128] result back to [4, 4096, 128], and from it forms each
  row's squared length Σ_e h[p, n, e]², once as a column [4, 4096, 1] and once, transposed, as a row [4, 1, 4096]. The
  sum starts from the zero word, which is the extended real 0; the change of float format before squaring is the
  identity.
-/
import proofs.«118612_j64948495450525_1_alg».proof.Proof.Gen.KernelIdeal.Regions
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«118612_j64948495450525_1_alg».proof.Proof.LibIndexReads

noncomputable section

open scoped BigOperators

namespace Cert.KernelIdeal.KValue

open Cert.KernelIdeal Cert.KernelIdeal.Gen Idealize.ShloMosaic Idealize.ShloMosaic.ValueIdx Idealize.ShloMosaic.TcCoe
open Cert.Lib.IndexReads

/-- Row `n` of batch `p` among all 16384 rows. -/
def flatRow (p : Fin 4) (n : Fin 4096) : Fin 16384 :=
  ⟨p.val * 4096 + n.val, by have := p.isLt; have := n.isLt; omega⟩

theorem flatRow_val (p : Fin 4) (n : Fin 4096) : (flatRow p n).val = p.val * 4096 + n.val := rfl

/-! ## The buffers before the first region -/

section Buffers

variable (m : (ℓ : Loc nD τ sig) → Buf (Elt Ideal) ℓ) (outs : Outs (F := Ideal)) (c : Dev nD)

/-- The weight reaches the first region as launched: no host operation writes it. -/
theorem V1_arg1 : V1 m c main_arg1 = m ((c : Thread nD τ).loc main_arg1) :=
  (V1_of m c main_arg1 (by decide)).trans rfl

/-- The array of all rows is the input re-laid. -/
theorem V1_v0_eq : (V1 m c main_v0 : S16384x128.Idx → EReal)
    = shapeCast S16384x128 (m ((c : Thread nD τ).loc main_arg0)) shapeCasts_S4x4096x128_S16384x128 := by
  dsimp only [V1, hostOps0]; after_results; rfl

/-- Row `q = p · 4096 + n` of the array of all rows is row `n` of batch `p` of the input. -/
theorem V1_v0_at (q : Fin 16384) (p : Fin 4) (n : Fin 4096) (d : Fin 128) (hq : q.val = p.val * 4096 + n.val) :
    V1 m c main_v0 (ix2 q d) = m ((c : Thread nD τ).loc main_arg0) (ix3 p n d) :=
  (congrFun (V1_v0_eq m c) _).trans (flatten_apply _ _ q p n d hq)

theorem V1_v0 (p : Fin 4) (n : Fin 4096) (d : Fin 128) :
    V1 m c main_v0 (ix2 (flatRow p n) d) = m ((c : Thread nD τ).loc main_arg0) (ix3 p n d) :=
  V1_v0_at m c _ p n d rfl

/-- The bias row is the bias re-laid. -/
theorem V1_v1_eq : (V1 m c main_v1 : S1x128.Idx → EReal)
    = shapeCast S1x128 (m ((c : Thread nD τ).loc main_arg2)) shapeCasts_S128_S1x128 := by
  dsimp only [V1, hostOps0]; after_results; rfl

theorem V1_v1 (e : Fin 128) : V1 m c main_v1 (ix2 0 e) = m ((c : Thread nD τ).loc main_arg2) (ix1 e) :=
  (congrFun (V1_v1_eq m c) _).trans (shapeCast_a_1a_apply _ _ (0 : Fin 1) e)

end Buffers

/-! ## The buffers between the two regions -/

section Between

variable (m : (ℓ : Loc nD τ sig) → Buf (Elt Ideal) ℓ) (outs : Outs (F := Ideal)) (c : Dev nD)

/-- After the first region its output array holds what the region left there. -/
theorem V2_v2 : V2 m outs c main_v2 = outs 2 main_v2 c := Function.update_self ..

/-- The projected rows by batch: the first region's result re-laid. -/
theorem V3_v3_eq : (V3 m outs c main_v3 : S4x4096x128.Idx → EReal)
    = shapeCast S4x4096x128 (outs 2 main_v2 c) shapeCasts_S16384x128_S4x4096x128 := by
  have e : (V3 m outs c main_v3 : S4x4096x128.Idx → EReal)
      = shapeCast S4x4096x128 (V2 m outs c main_v2) shapeCasts_S16384x128_S4x4096x128 := by
    dsimp only [V3, hostOps1]; after_results; rfl
  rw [e, V2_v2]

/-- Row `n` of batch `p` of the projected rows is row `q = p · 4096 + n` of the first region's result. -/
theorem V3_v3_at (q : Fin 16384) (p : Fin 4) (n : Fin 4096) (e : Fin 128) (hq : q.val = p.val * 4096 + n.val) :
    V3 m outs c main_v3 (ix3 p n e) = outs 2 main_v2 c (ix2 q e) :=
  (congrFun (V3_v3_eq m outs c) _).trans (unflatten_apply _ _ q p n e hq)

theorem V3_v3 (p : Fin 4) (n : Fin 4096) (e : Fin 128) :
    V3 m outs c main_v3 (ix3 p n e) = outs 2 main_v2 c (ix2 (flatRow p n) e) :=
  V3_v3_at m outs c _ p n e rfl

/-- The column of squared lengths, as the host forms it from the projected rows. -/
theorem V3_v7_eq : (V3 m outs c main_v7 : S4x4096x1.Idx → EReal)
    = broadcastInDim S4x4096x1 ![0, 1] bcast_S4x4096_S4x4096x1_0_1
        (Host.reduceAdd (F := Ideal)
          (mulf (extf .f32 (V3 m outs c main_v3 : FVec Ideal S4x4096x128 .bf16) bitsLt_bf16_f32)
            (extf .f32 (V3 m outs c main_v3 : FVec Ideal S4x4096x128 .bf16) bitsLt_bf16_f32))
          (constant (F := Ideal) S_ .f32 0x00000000#32) reducesTo_S4x4096x128_S4x4096_d2 h_S_) := by
  dsimp only [V3, hostOps1]; after_results

/-- The projected rows by batch, as a function into the extended reals. -/
abbrev hRows : S4x4096x128.Idx → EReal := V3 m outs c main_v3

/-- The column's entry of row `n` of batch `p` is that projected row's squared length, whatever function `H` the
    projected rows are known to be. -/
theorem V3_v7_of (H : S4x4096x128.Idx → EReal) (hH : (V3 m outs c main_v3 : S4x4096x128.Idx → EReal) = H)
    (p : Fin 4) (n : Fin 4096) :
    V3 m outs c main_v7 (ix3 p n 0) = ∑ e : Fin 128, H (ix3 p n e) * H (ix3 p n e) := by
  subst hH
  exact (congrFun (V3_v7_eq m outs c) _).trans ((keepdims_apply _ _ p n 0).trans
    (hostSumSq_last3_apply _ _ _ (by decide) _ p n))

theorem V3_v7 (p : Fin 4) (n : Fin 4096) :
    V3 m outs c main_v7 (ix3 p n 0) = ∑ e : Fin 128, hRows m outs c (ix3 p n e) * hRows m outs c (ix3 p n e) :=
  V3_v7_of m outs c _ rfl p n

/-- The row of squared lengths is the column transposed. -/
theorem V3_v8_eq : (V3 m outs c main_v8 : S4x1x4096.Idx → EReal)
    = transpose S4x1x4096 [0, 2, 1] (V3 m outs c main_v7 : S4x4096x1.Idx → EReal) transposes_S4x4096x1_S4x1x4096_0_2_1 := by
  dsimp only [V3, hostOps1]; after_results

/-- The row's entry `n` of batch `p` is the same squared length. -/
theorem V3_v8_of (H : S4x4096x128.Idx → EReal) (hH : (V3 m outs c main_v3 : S4x4096x128.Idx → EReal) = H)
    (p : Fin 4) (n : Fin 4096) :
    V3 m outs c main_v8 (ix3 p 0 n) = ∑ e : Fin 128, H (ix3 p n e) * H (ix3 p n e) :=
  (congrFun (V3_v8_eq m outs c) _).trans ((transpose_ix3_021_apply _ _ p 0 n).trans (V3_v7_of m outs c H hH p n))

theorem V3_v8 (p : Fin 4) (n : Fin 4096) :
    V3 m outs c main_v8 (ix3 p 0 n) = ∑ e : Fin 128, hRows m outs c (ix3 p n e) * hRows m outs c (ix3 p n e) :=
  V3_v8_of m outs c _ rfl p n

end Between

end Cert.KernelIdeal.KValue

end
-- ==== Proof.KPayload.lean ====
/-
  The arithmetic of the two kernel bodies, read one entry at a time over the extended reals.

  The first body takes a block of 2048 rows x, the whole weight matrix w and the bias row b and stores
      x · wᵀ + b,
  that is, at row r and feature e, the sum over d of x[r, d] · w[e, d], plus b[e]. The matrix product contracts the
  second axis of both operands; it accumulates into a zero array, so nothing but the sum is left. The changes of float
  format on the way in and out are the identity on extended reals.

  The second body takes two blocks of 1024 projected rows hi, hj, a column sc of squared lengths of the rows of hi and a
  row sr of squared lengths of the rows of hj, and stores, at (i, j),
      exp( (0 − √(max((sc[i] + sr[j]) − 2 · Σ_e hi[i, e] · hj[j, e], 0))) · 1 ).
  The column is spread along the rows and the row along the columns before they are added; the leading unit axis every
  block carries is dropped on the way in and put back on the way out. The subtraction from zero is the negation.
-/
import proofs.«118612_j64948495450525_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«118612_j64948495450525_1_alg».proof.Proof.LibIndexReads

noncomputable section

open scoped BigOperators

namespace Cert.KernelIdeal.KValue

open Cert.KernelIdeal Cert.KernelIdeal.Gen Idealize.ShloMosaic Idealize.ShloMosaic.ValueIdx Cert.Lib.IndexReads

/-! ## The projection body -/

/-- The first body's stored block at row `r`, feature `e`: row `r` of the input block against row `e` of the weight,
    plus the bias's entry `e`. -/
theorem proj_block (x0 : Vec Ideal S2048x128 .f32) (w : Vec Ideal S128x128 .f32) (b1 : Vec Ideal S1x128 .f32)
    (r : Fin 2048) (e : Fin 128) :
    k0_pay1 (F := Ideal) x0 w b1 (ix2 r e) = (∑ d : Fin 128, x0 (ix2 r d) * w (ix2 e d)) + b1 (ix2 0 e) := by
  unfold k0_pay1
  -- the format changes are the identity, the sum of two arrays is the sum entry by entry
  show matmul dot_S2048x128_S128x128_S2048x128_1_1_0_0_n_n none
        (truncf .bf16 (shapeCast S2048x128 x0 shapeCasts_S2048x128_S2048x128) bitsLt_bf16_f32)
        (truncf .bf16 w bitsLt_bf16_f32) (constant (F := Ideal) S2048x128 .f32 0x00000000#32) (ix2 r e)
      + broadcastTo S2048x128 (shapeCast S1x128 b1 shapeCasts_S1x128_S1x128) broadcasts_S1x128_S2048x128 (ix2 r e) = _
  refine congrArg₂ (· + ·) ?_ ?_
  · refine (matmul_nt_apply _ none _ _ r e).trans (Finset.sum_congr rfl fun d _ => ?_)
    show shapeCast S2048x128 x0 shapeCasts_S2048x128_S2048x128 (ix2 r d) * w (ix2 e d) = _
    rw [shapeCast_self]
  · rw [shapeCast_self]
    exact broadcastTo_1b_ab_apply b1 _ r e

/-! ## The pairwise body -/

/-- The second body's stored block at `(i, j)`. -/
theorem pair_block (hi hj : Vec Ideal S1x1024x128 .bf16) (sc : Vec Ideal S1x1024x1 .f32) (sr : Vec Ideal S1x1x1024 .f32)
    (i j : Fin 1024) :
    k1_pay1 (F := Ideal) hi hj sc sr (ix3 0 i j)
      = Ideal.exp ((-(Ideal.sqrt (max ((sc (ix3 0 i 0) + sr (ix3 0 0 j))
            - Ideal.ofBits .f32 0x40000000#32 * ∑ e : Fin 128, hi (ix3 0 i e) * hj (ix3 0 j e))
          (Ideal.ofBits .f32 0x00000000#32)))) * Ideal.ofBits .f32 0x3F800000#32) := by
  unfold k1_pay1
  -- the leading unit axis put back on the way out
  refine (shapeCast_ab_1ab_apply _ shapeCasts_S1024x1024_S1x1024x1024 (0 : Fin 1) i j).trans ?_
  -- the column of squared lengths, spread along the row: row i's entry
  have hc : broadcastTo S1024x1024 (shapeCast S1024x1 sc shapeCasts_S1x1024x1_S1024x1) broadcasts_S1024x1_S1024x1024 (ix2 i j)
      = sc (ix3 0 i 0) :=
    (broadcastTo_a1_ab_apply _ _ i j).trans (shapeCast_1ab_ab_apply sc _ i 0)
  -- the row of squared lengths, spread along the column: column j's entry
  have hr : broadcastTo S1024x1024 (shapeCast S1x1024 sr shapeCasts_S1x1x1024_S1x1024) broadcasts_S1x1024_S1024x1024 (ix2 i j)
      = sr (ix3 0 0 j) :=
    (broadcastTo_1b_ab_apply _ _ i j).trans (shapeCast_1ab_ab_apply sr _ 0 j)
  -- the product of the two blocks: the inner product of row i of the one with row j of the other
  have hg : matmul dot_S1024x128_S1024x128_S1024x1024_1_1_0_0_n_n none
        (shapeCast S1024x128 hi shapeCasts_S1x1024x128_S1024x128) (shapeCast S1024x128 hj shapeCasts_S1x1024x128_S1024x128)
        (constant (F := Ideal) S1024x1024 .f32 0x00000000#32) (ix2 i j)
      = ∑ e : Fin 128, hi (ix3 0 i e) * hj (ix3 0 j e) :=
    (matmul_nt_apply _ none _ _ i j).trans (Finset.sum_congr rfl fun e _ => by
      rw [shapeCast_1ab_ab_apply, shapeCast_1ab_ab_apply])
  -- the pointwise operations, entry by entry
  show Ideal.exp ((Ideal.ofBits .f32 0x00000000#32
        - Ideal.sqrt (max ((broadcastTo S1024x1024 (shapeCast S1024x1 sc shapeCasts_S1x1024x1_S1024x1) broadcasts_S1024x1_S1024x1024 (ix2 i j)
              + broadcastTo S1024x1024 (shapeCast S1x1024 sr shapeCasts_S1x1x1024_S1x1024) broadcasts_S1x1024_S1024x1024 (ix2 i j))
            - Ideal.ofBits .f32 0x40000000#32
              * matmul dot_S1024x128_S1024x128_S1024x1024_1_1_0_0_n_n none
                  (shapeCast S1024x128 hi shapeCasts_S1x1024x128_S1024x128) (shapeCast S1024x128 hj shapeCasts_S1x1024x128_S1024x128)
                  (constant (F := Ideal) S1024x1024 .f32 0x00000000#32) (ix2 i j))
          (Ideal.ofBits .f32 0x00000000#32))) * Ideal.ofBits .f32 0x3F800000#32) = _
  -- zero minus a value is its negation; what is left differs only in the inner product
  rw [hc, hr, Ideal.ofBits_zero_f32, zero_sub]
  exact congrArg (fun g : EReal => Ideal.exp ((-(Ideal.sqrt (max ((sc (ix3 0 i 0) + sr (ix3 0 0 j))
      - Ideal.ofBits .f32 0x40000000#32 * g) 0))) * Ideal.ofBits .f32 0x3F800000#32)) hg

end Cert.KernelIdeal.KValue

end
-- ==== Proof.ProjArray.lean ====
/-
  The projection region's result array, entry by entry.

  The region runs its body at 8 grid points; point t is handed rows 2048·t … 2048·t + 2047 of the flattened input
  (all 128 columns), the whole weight and the bias row, and what it leaves is written back to rows 2048·t … of the
  result. Entry (r, e) of what the body leaves is Σ_d x[r, d] · w[e, d] + b[e] of the blocks it was handed, so,
  read through where each block sits in its array, entry (k, e) of the result array is

      Σ_d rows[k, d] · weight[e, d] + bias[0, e]

  of the three arrays as the region finds them: one function of the arrays, the same at every point. The 8 row
  blocks tile the 16384 rows (row k lies in block k / 2048), so the whole result array is that function.
-/
import proofs.«118612_j64948495450525_1_alg».proof.Proof.IdealProj
import proofs.«118612_j64948495450525_1_alg».proof.Proof.KPayload
import Idealize.ShloMosaic.Lib.Pipeline.Value
import Idealize.ShloMosaic.Lib.ValueIdx

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

-- the contents of the core's buffers when the region is entered
variable (V : (c : Dev nD) → (b : Ref sig .tc) → Buf (Elt Ideal) ((c : Thread nD τ).loc b))

/-- Every access of the body starts at the origin of its buffer. -/
theorem zero_off2 : (![0, 0] : Fin 2 → Nat) = fun _ => 0 := funext fun a => by fin_cases a <;> rfl

/-! ## The three arrays the region reads, and the function of them it computes -/

/-- The flattened input rows, [16384, 128], as the region finds them. -/
abbrev rowsArr (c : Dev nD) : S16384x128.Idx → EReal := V c main_v0
/-- The weight, [128, 128]. -/
abbrev weightArr (c : Dev nD) : S128x128.Idx → EReal := V c main_arg1
/-- The bias as a row, [1, 128]. -/
abbrev biasArr (c : Dev nD) : S1x128.Idx → EReal := V c main_v1

/-- Entry (k, e) of the projection: row k against row e of the weight, plus the bias at e. -/
def projEntry (c : Dev nD) (k : Fin 16384) (e : Fin 128) : EReal :=
  (∑ d : Fin 128, rowsArr V c (ix2 k d) * weightArr V c (ix2 e d)) + biasArr V c (ix2 0 e)

/-- The whole projected array. -/
def projG (c : Dev nD) : S16384x128.Idx → EReal := fun i => projEntry V c (i 0) (i 1)

/-- Equal coordinates give the same entry. -/
theorem projEntry_congr (c : Dev nD) {k k' : Fin 16384} {e e' : Fin 128} (hk : k.val = k'.val) (he : e.val = e'.val) :
    projEntry V c k e = projEntry V c k' e' := by rw [Fin.ext hk, Fin.ext he]

/-! ## Where the blocks sit -/

/-- The block indices at point t, decided over the 8 points: the input rows' and the result's row block is t, their
    column block 0; the weight and the bias never move. -/
theorem proj_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the input block at point t is row 2048·t + r of the array: a block's coordinate is its block index
    times the block's extent plus the coordinate inside the block. -/
theorem rows_read (c : Dev nD) (t : Fin cfg0.N) (r : Fin 2048) (d : Fin 128) (k : Fin 16384) (hk : k.val = 2048 * t.val + r.val) :
    Proj.blk V c 0 t (ix2 r d) = rowsArr V c (ix2 k d) := by
  obtain ⟨e0, e1, -⟩ := proj_idx t
  show rowsArr V c (((cfg0.win 0).blk t).view.emb (ix2 r d)) = _
  refine congrArg _ (funext fun a => Fin.ext ?_)
  match a with
  | ⟨0, _⟩ => show win0_0.index t (0 : Fin 2) * 2048 + 1 * r.val = k.val; omega
  | ⟨1, _⟩ => show win0_0.index t (1 : Fin 2) * 128 + 1 * d.val = d.val; omega

/-- The weight's block is the whole weight at every point. -/
theorem weight_read (c : Dev nD) (t : Fin cfg0.N) (e d : Fin 128) :
    Proj.blk V c 1 t (ix2 e d) = weightArr V c (ix2 e d) := by
  obtain ⟨-, -, e0, e1, -⟩ := proj_idx t
  show weightArr V c (((cfg0.win 1).blk t).view.emb (ix2 e d)) = _
  refine congrArg _ (funext fun a => Fin.ext ?_)
  match a with
  | ⟨0, _⟩ => show win0_1.index t (0 : Fin 2) * 128 + 1 * e.val = e.val; omega
  | ⟨1, _⟩ => show win0_1.index t (1 : Fin 2) * 128 + 1 * d.val = d.val; omega

/-- The bias's block is the whole bias row at every point. -/
theorem bias_read (c : Dev nD) (t : Fin cfg0.N) (e : Fin 128) :
    Proj.blk V c 2 t (ix2 0 e) = biasArr V c (ix2 0 e) := by
  obtain ⟨-, -, -, -, e0, e1, -⟩ := proj_idx t
  show biasArr V c (((cfg0.win 2).blk t).view.emb (ix2 0 e)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * e.val = e.val; omega

/-! ## What one point writes back -/

/-- Entry (r, e) of what the body leaves at point t is entry (2048·t + r, e) of the projection of the arrays. -/
theorem proj_point (c : Dev nD) (t : Fin cfg0.N) (r : Fin 2048) (e : Fin 128) (k : Fin 16384) (hk : k.val = 2048 * t.val + r.val) :
    k0_pay1 (F := Ideal) (Proj.blk V c 0 t) (Proj.blk V c 1 t) (Proj.blk V c 2 t) (ix2 r e) = projEntry V c k e := by
  refine (proj_block _ _ _ r e).trans ?_
  unfold projEntry
  rw [bias_read]
  refine congrArg (· + biasArr V c (ix2 0 e)) (Finset.sum_congr rfl fun d _ => ?_)
  rw [rows_read V c t r d k hk, weight_read]

/-- What point t writes back is its block of the projected array. -/
theorem proj_flushed (c : Dev nD) (t : Fin cfg0.N) :
    (Proj.dat (F := Ideal) V c).flushed 3 t = ((cfg0.win 3).blk t).view.read (Elt Ideal) (projG V c) := by
  show (cfg0.win 3).cut (grid0.coords t) ((Proj.dat (F := Ideal) V c).after 3 t) = _
  rw [Proj.after_out]
  unfold Proj.projOut
  rw [View.canon_unit_zero zero_off2]
  simp only [View.ld_unit_zero (S := S2048x128) zero_off2, View.ld_unit_zero (S := S128x128) zero_off2,
    View.ld_unit_zero (S := S1x128) zero_off2]
  funext y
  have hr : (y 0).val < 2048 := (y 0).isLt
  have he : (y 1).val < 128 := (y 1).isLt
  have hN : cfg0.N = 8 := N_0
  have ht : t.val < cfg0.N := t.isLt
  obtain ⟨-, -, -, -, -, -, e6, e7⟩ := proj_idx t
  have hx : (win0 3).xinj (grid0.coords t) y = ix2 (⟨(y 0).val, hr⟩ : Fin 2048) (⟨(y 1).val, he⟩ : Fin 128) :=
    funext fun a => by match a with | ⟨0, _⟩ => rfl | ⟨1, _⟩ => rfl
  refine (congrArg (k0_pay1 (F := Ideal) (Proj.blk V c 0 t) (Proj.blk V c 1 t) (Proj.blk V c 2 t)) hx).trans ?_
  refine (proj_point V c t _ _ (⟨2048 * t.val + (y 0).val, by omega⟩ : Fin 16384) rfl).trans ?_
  show _ = projEntry V c (((cfg0.win 3).blk t).view.emb y 0) (((cfg0.win 3).blk t).view.emb y 1)
  refine projEntry_congr V c ?_ ?_
  · show 2048 * t.val + (y 0).val = win0_3.index t (0 : Fin 2) * 2048 + 1 * (y 0).val; omega
  · show (y 1).val = win0_3.index t (1 : Fin 2) * 128 + 1 * (y 1).val; omega

/-! ## The blocks tile the array -/

/-- An index of the result array is in point t's block iff each coordinate is in the block's range on its axis. -/
theorem proj_mem_blk (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v2).slice (win0_3.rect t)).set ↔ _
  rw [View.set_slice_whole, Rect.mem_set_unit]
  exact Iff.rfl

/-- Row k is written back by point k / 2048. -/
theorem proj_cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, -, -, e6, e7⟩ := proj_idx t
  refine ⟨t, flush0_3 t, ?_⟩
  rw [proj_mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-! ## The result array -/

/-- After the region the result array is the projected array. -/
theorem proj_final (c : Dev nD) : (Proj.dat (F := Ideal) V c).arrAt 3 cfg0.N = projG V c :=
  (Proj.dat (F := Ideal) V c).arrAt_eq_of_cover 3 (projG V c) (fun t _ => proj_flushed V c t) proj_cover

/-- Entry (k, e) of the result array after the region. -/
theorem proj_array (c : Dev nD) (k : Fin 16384) (e : Fin 128) :
    (Proj.dat (F := Ideal) V c).arrAt 3 cfg0.N (ix2 k e)
      = (∑ d : Fin 128, rowsArr V c (ix2 k d) * weightArr V c (ix2 e d)) + biasArr V c (ix2 0 e) := by
  rw [proj_final]; rfl

end Cert.KernelIdeal.KValue

end
-- ==== Proof.PairArray.lean ====
/-
  The pairwise region's result array, entry by entry.

  The region runs its body at the 64 points of a 4 × 4 × 4 grid: a batch p, a tile I of 1024 rows and a tile J of
  1024 rows. The point is handed rows 1024·I … of batch p of the projected array h, rows 1024·J … of the same
  batch, the squared lengths of the first rows as a column and of the second rows as a row, and what it leaves is
  written back to the tile (p, I, J) of the result. Entry (i, j) of what the body leaves is
      exp( −√(max((col[i] + row[j]) − 2 · Σ_e hI[i, e] · hJ[j, e], 0)) · 1 )
  of the blocks it was handed, so, read through where each block sits in its array, entry (p, i, j) of the result
  array is
      exp( −√(max((sqCol[p, i, 0] + sqRow[p, 0, j]) − 2 · Σ_e h[p, i, e] · h[p, j, e], 0)) · 1 )
  of the three arrays as the region finds them: one function of the arrays, the same at every point. The 64 tiles
  cover the result array (entry (p, i, j) lies in the tile (p, i / 1024, j / 1024)), so the whole array is that function.
-/
import proofs.«118612_j64948495450525_1_alg».proof.Proof.IdealPair
import proofs.«118612_j64948495450525_1_alg».proof.Proof.KPayload
import Idealize.ShloMosaic.Lib.Pipeline.Value
import Idealize.ShloMosaic.Lib.ValueIdx

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

-- the contents of the core's buffers when the region is entered
variable (V : (c : Dev nD) → (b : Ref sig .tc) → Buf (Elt Ideal) ((c : Thread nD τ).loc b))

/-- Every access of the body starts at the origin of its buffer. -/
theorem zero_off3 : (![0, 0, 0] : Fin 3 → Nat) = fun _ => 0 := funext fun a => by fin_cases a <;> rfl

/-! ## The three arrays the region reads, and the function of them it computes -/

/-- The projected rows, [4, 4096, 128], as the region finds them. -/
abbrev projArr (c : Dev nD) : S4x4096x128.Idx → EReal := V c main_v3
/-- The rows' squared lengths laid out as a column per batch, [4, 4096, 1]. -/
abbrev sqColArr (c : Dev nD) : S4x4096x1.Idx → EReal := V c main_v7
/-- The same squared lengths laid out as a row per batch, [4, 1, 4096]. -/
abbrev sqRowArr (c : Dev nD) : S4x1x4096.Idx → EReal := V c main_v8

/-- Entry (p, i, j): the exponential of minus the root of the clamped squared distance of rows i and j of batch p,
    the squared distance formed as |h_i|² + |h_j|² − 2·h_i·h_j from the column, the row and the inner product. -/
def pairEntry (c : Dev nD) (p : Fin 4) (i j : Fin 4096) : EReal :=
  Ideal.exp ((-(Ideal.sqrt (max ((sqColArr V c (ix3 p i 0) + sqRowArr V c (ix3 p 0 j))
      - Ideal.ofBits .f32 0x40000000#32 * ∑ e : Fin 128, projArr V c (ix3 p i e) * projArr V c (ix3 p j e))
    (Ideal.ofBits .f32 0x00000000#32)))) * Ideal.ofBits .f32 0x3F800000#32)

/-- The whole result array. -/
def pairG (c : Dev nD) : S4x4096x4096.Idx → EReal := fun o => pairEntry V c (o 0) (o 1) (o 2)

/-- Equal coordinates give the same entry. -/
theorem pairEntry_congr (c : Dev nD) {p p' : Fin 4} {i i' j j' : Fin 4096} (hp : p.val = p'.val) (hi : i.val = i'.val) (hj : j.val = j'.val) :
    pairEntry V c p i j = pairEntry V c p' i' j' := by rw [Fin.ext hp, Fin.ext hi, Fin.ext hj]

/-! ## Where the blocks sit -/

/-- The block indices at point t of the 4 × 4 × 4 grid, decided over its 64 points. The point's coordinates are
    p = t / 16, I = t / 4 mod 4, J = t mod 4. The first row tile and the column of squared lengths sit at (p, I, 0),
    the second row tile at (p, J, 0), the row of squared lengths at (p, 0, J), the result tile at (p, I, J). -/
theorem pair_idx : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val / 4 % 4 ∧ win1_2.index t (2 : Fin 3) = 0
    ∧ win1_3.index t (0 : Fin 3) = t.val / 16 ∧ win1_3.index t (1 : Fin 3) = 0 ∧ win1_3.index t (2 : Fin 3) = t.val % 4
    ∧ win1_4.index t (0 : Fin 3) = t.val / 16 ∧ win1_4.index t (1 : Fin 3) = t.val / 4 % 4 ∧ win1_4.index t (2 : Fin 3) = t.val % 4 :=
  (by decide +kernel : ∀ t : Fin grid1.N, _)

/-- Row i of the first tile at point t is row 1024·I + i of batch p of the projected array: a block's coordinate is
    its block index times the block's extent plus the coordinate inside the block. -/
theorem tileI_read (c : Dev nD) (t : Fin cfg1.N) (i : Fin 1024) (e : Fin 128) (p : Fin 4) (k : Fin 4096)
    (hp : p.val = t.val / 16) (hk : k.val = 1024 * (t.val / 4 % 4) + i.val) :
    Pair.blk V c 0 t (ix3 0 i e) = projArr V c (ix3 p k e) := by
  obtain ⟨e0, e1, e2, -⟩ := pair_idx t
  show projArr V c (((cfg1.win 0).blk t).view.emb (ix3 0 i e)) = _
  refine congrArg _ (funext fun a => Fin.ext ?_)
  match a with
  | ⟨0, _⟩ => show win1_0.index t (0 : Fin 3) * 1 + 1 * 0 = p.val; omega
  | ⟨1, _⟩ => show win1_0.index t (1 : Fin 3) * 1024 + 1 * i.val = k.val; omega
  | ⟨2, _⟩ => show win1_0.index t (2 : Fin 3) * 128 + 1 * e.val = e.val; omega

/-- Row j of the second tile is row 1024·J + j of the same batch of the same array. -/
theorem tileJ_read (c : Dev nD) (t : Fin cfg1.N) (j : Fin 1024) (e : Fin 128) (p : Fin 4) (k : Fin 4096)
    (hp : p.val = t.val / 16) (hk : k.val = 1024 * (t.val % 4) + j.val) :
    Pair.blk V c 1 t (ix3 0 j e) = projArr V c (ix3 p k e) := by
  obtain ⟨-, -, -, e0, e1, e2, -⟩ := pair_idx t
  show projArr V c (((cfg1.win 1).blk t).view.emb (ix3 0 j e)) = _
  refine congrArg _ (funext fun a => Fin.ext ?_)
  match a with
  | ⟨0, _⟩ => show win1_1.index t (0 : Fin 3) * 1 + 1 * 0 = p.val; omega
  | ⟨1, _⟩ => show win1_1.index t (1 : Fin 3) * 1024 + 1 * j.val = k.val; omega
  | ⟨2, _⟩ => show win1_1.index t (2 : Fin 3) * 128 + 1 * e.val = e.val; omega

/-- The column block holds the squared lengths of the first tile's rows. -/
theorem sqCol_read (c : Dev nD) (t : Fin cfg1.N) (i : Fin 1024) (p : Fin 4) (k : Fin 4096)
    (hp : p.val = t.val / 16) (hk : k.val = 1024 * (t.val / 4 % 4) + i.val) :
    Pair.blk V c 2 t (ix3 0 i 0) = sqColArr V c (ix3 p k 0) := by
  obtain ⟨-, -, -, -, -, -, e0, e1, e2, -⟩ := pair_idx t
  show sqColArr V c (((cfg1.win 2).blk t).view.emb (ix3 0 i 0)) = _
  refine congrArg _ (funext fun a => Fin.ext ?_)
  match a with
  | ⟨0, _⟩ => show win1_2.index t (0 : Fin 3) * 1 + 1 * 0 = p.val; omega
  | ⟨1, _⟩ => show win1_2.index t (1 : Fin 3) * 1024 + 1 * i.val = k.val; omega
  | ⟨2, _⟩ => show win1_2.index t (2 : Fin 3) * 1 + 1 * 0 = 0; omega

/-- The row block holds the squared lengths of the second tile's rows. -/
theorem sqRow_read (c : Dev nD) (t : Fin cfg1.N) (j : Fin 1024) (p : Fin 4) (k : Fin 4096)
    (hp : p.val = t.val / 16) (hk : k.val = 1024 * (t.val % 4) + j.val) :
    Pair.blk V c 3 t (ix3 0 0 j) = sqRowArr V c (ix3 p 0 k) := by
  obtain ⟨-, -, -, -, -, -, -, -, -, e0, e1, e2, -⟩ := pair_idx t
  show sqRowArr V c (((cfg1.win 3).blk t).view.emb (ix3 0 0 j)) = _
  refine congrArg _ (funext fun a => Fin.ext ?_)
  match a with
  | ⟨0, _⟩ => show win1_3.index t (0 : Fin 3) * 1 + 1 * 0 = p.val; omega
  | ⟨1, _⟩ => show win1_3.index t (1 : Fin 3) * 1 + 1 * 0 = 0; omega
  | ⟨2, _⟩ => show win1_3.index t (2 : Fin 3) * 1024 + 1 * j.val = k.val; omega

/-! ## What one point writes back -/

/-- Entry (i, j) of what the body leaves at point t is entry (p, 1024·I + i, 1024·J + j) of the result function of the
    arrays: the body's arithmetic of its four blocks, each block read where it sits. -/
theorem pair_point (c : Dev nD) (t : Fin cfg1.N) (i j : Fin 1024) (p : Fin 4) (ki kj : Fin 4096)
    (hp : p.val = t.val / 16) (hi : ki.val = 1024 * (t.val / 4 % 4) + i.val) (hj : kj.val = 1024 * (t.val % 4) + j.val) :
    k1_pay1 (F := Ideal) (Pair.blk V c 0 t) (Pair.blk V c 1 t) (Pair.blk V c 2 t) (Pair.blk V c 3 t) (ix3 0 i j)
      = pairEntry V c p ki kj := by
  refine (pair_block _ _ _ _ i j).trans ?_
  unfold pairEntry
  rw [sqCol_read V c t i p ki hp hi, sqRow_read V c t j p kj hp hj]
  refine congrArg (fun s => Ideal.exp ((-(Ideal.sqrt (max ((sqColArr V c (ix3 p ki 0) + sqRowArr V c (ix3 p 0 kj))
      - Ideal.ofBits .f32 0x40000000#32 * s) (Ideal.ofBits .f32 0x00000000#32)))) * Ideal.ofBits .f32 0x3F800000#32))
    (Finset.sum_congr rfl fun e _ => ?_)
  rw [tileI_read V c t i e p ki hp hi, tileJ_read V c t j e p kj hp hj]

/-- What point t writes back is its tile of the result function. The tile's leading axis has extent one, so its
    only coordinate there is 0. -/
theorem pair_flushed (c : Dev nD) (t : Fin cfg1.N) :
    (Pair.dat (F := Ideal) V c).flushed 4 t = ((cfg1.win 4).blk t).view.read (Elt Ideal) (pairG V c) := by
  show (cfg1.win 4).cut (grid1.coords t) ((Pair.dat (F := Ideal) V c).after 4 t) = _
  rw [Pair.after_out]
  unfold Pair.pairOut
  rw [View.canon_unit_zero zero_off3]
  simp only [View.ld_unit_zero (S := S1x1024x128) zero_off3, View.ld_unit_zero (S := S1x1024x1) zero_off3,
    View.ld_unit_zero (S := S1x1x1024) zero_off3]
  funext y
  have h0 : (y 0).val < 1 := (y 0).isLt
  have h1 : (y 1).val < 1024 := (y 1).isLt
  have h2 : (y 2).val < 1024 := (y 2).isLt
  have hN : cfg1.N = 64 := N_1
  have ht : t.val < cfg1.N := t.isLt
  obtain ⟨-, -, -, -, -, -, -, -, -, -, -, -, e0, e1, e2⟩ := pair_idx t
  have hx : (win1 4).xinj (grid1.coords t) y = ix3 (0 : Fin 1) (⟨(y 1).val, h1⟩ : Fin 1024) (⟨(y 2).val, h2⟩ : Fin 1024) :=
    funext fun a => by
      match a with
      | ⟨0, _⟩ => exact Fin.ext (by show (y 0).val = 0; omega)
      | ⟨1, _⟩ => rfl
      | ⟨2, _⟩ => rfl
  refine (congrArg (k1_pay1 (F := Ideal) (Pair.blk V c 0 t) (Pair.blk V c 1 t) (Pair.blk V c 2 t) (Pair.blk V c 3 t)) hx).trans ?_
  refine (pair_point V c t _ _ (⟨t.val / 16, by omega⟩ : Fin 4) (⟨1024 * (t.val / 4 % 4) + (y 1).val, by omega⟩ : Fin 4096)
    (⟨1024 * (t.val % 4) + (y 2).val, by omega⟩ : Fin 4096) rfl rfl rfl).trans ?_
  show _ = pairEntry V c (((cfg1.win 4).blk t).view.emb y 0) (((cfg1.win 4).blk t).view.emb y 1) (((cfg1.win 4).blk t).view.emb y 2)
  refine pairEntry_congr V c ?_ ?_ ?_
  · show t.val / 16 = win1_4.index t (0 : Fin 3) * 1 + 1 * (y 0).val; omega
  · show 1024 * (t.val / 4 % 4) + (y 1).val = win1_4.index t (1 : Fin 3) * 1024 + 1 * (y 1).val; omega
  · show 1024 * (t.val % 4) + (y 2).val = win1_4.index t (2 : Fin 3) * 1024 + 1 * (y 2).val; omega

/-! ## The tiles cover the array -/

/-- An index of the result array is in point t's tile iff each coordinate is in the tile's range on its axis. -/
theorem pair_mem_blk (t : Fin cfg1.N) (i : S4x4096x4096.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v9).slice (win1_4.rect t)).set ↔ _
  rw [View.set_slice_whole, Rect.mem_set_unit]
  exact Iff.rfl

/-- Entry (p, i, j) is written back by the point with coordinates (p, i / 1024, j / 1024). -/
theorem pair_cover (i : S4x4096x4096.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 4096 := (i 2).isLt
  have hN : cfg1.N = 64 := N_1
  obtain ⟨t, ht⟩ : ∃ t : Fin cfg1.N, t.val = 16 * (i 0).val + 4 * ((i 1).val / 1024) + (i 2).val / 1024 :=
    ⟨⟨16 * (i 0).val + 4 * ((i 1).val / 1024) + (i 2).val / 1024, by omega⟩, rfl⟩
  obtain ⟨-, -, -, -, -, -, -, -, -, -, -, -, e0, e1, e2⟩ := pair_idx t
  refine ⟨t, flush1_4 t, ?_⟩
  rw [pair_mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-! ## The result array -/

/-- After the region the result array is the result function of the three arrays. -/
theorem pair_final (c : Dev nD) : (Pair.dat (F := Ideal) V c).arrAt 4 cfg1.N = pairG V c :=
  (Pair.dat (F := Ideal) V c).arrAt_eq_of_cover 4 (pairG V c) (fun t _ => pair_flushed V c t) pair_cover

/-- Entry (p, i, j) of the result array after the region. -/
theorem pair_array (c : Dev nD) (p : Fin 4) (i j : Fin 4096) :
    (Pair.dat (F := Ideal) V c).arrAt 4 cfg1.N (ix3 p i j)
      = Ideal.exp ((-(Ideal.sqrt (max ((sqColArr V c (ix3 p i 0) + sqRowArr V c (ix3 p 0 j))
          - Ideal.ofBits .f32 0x40000000#32 * ∑ e : Fin 128, projArr V c (ix3 p i e) * projArr V c (ix3 p j e))
        (Ideal.ofBits .f32 0x00000000#32)))) * Ideal.ofBits .f32 0x3F800000#32) := by
  rw [pair_final]; rfl

end Cert.KernelIdeal.KValue

end
-- ==== Proof.Bridge.lean ====
/-
  The kernel program's result is the specification's array.

  What ends in the result buffer is what the pairwise kernel's write-backs leave: entry (p, i, j) is the kernel's
  arithmetic of four things read off the buffers the kernel was entered with — rows i and j of batch p of the projected
  rows, entry i of the column of squared lengths and entry j of the row of squared lengths. Read back through the
  program: the projected rows are the first kernel's result re-laid by batch, and row q = p·4096 + n of that result is
  the projection of input row n of batch p against the weight's rows plus the bias (the inputs re-laid by the first
  host stretch); the two squared-length layouts are, by the second host stretch, Σ_e of the projected row's squares.
  Substituting gives the specification's entry, with the same grouping of the additions.
-/
import proofs.«118612_j64948495450525_1_alg».proof.Proof.IdealRun
import proofs.«118612_j64948495450525_1_alg».proof.Proof.Spec
import proofs.«118612_j64948495450525_1_alg».proof.Proof.KHost
import proofs.«118612_j64948495450525_1_alg».proof.Proof.ProjArray
import proofs.«118612_j64948495450525_1_alg».proof.Proof.PairArray

noncomputable section

open scoped BigOperators

namespace Cert.KernelIdeal.Bridge

open Idealize.ShloMosaic Idealize.ShloMosaic.TcCoe Idealize.ShloMosaic.ValueIdx
open Cert.KernelIdeal Cert.KernelIdeal.Gen Cert.KernelIdeal.KValue Cert.Pairwise

variable (m : (ℓ : Loc nD τ sig) → Buf (Elt Ideal) ℓ) (c : Dev nD)

/-- The three arguments as launched. -/
abbrev argX : FVec Ideal SX .f32 := m ((c.tc : Thread nD τ).loc main_arg0)
abbrev argW : FVec Ideal SW .f32 := m ((c.tc : Thread nD τ).loc main_arg1)
abbrev argB : FVec Ideal SB .f32 := m ((c.tc : Thread nD τ).loc main_arg2)

/-- Row p·4096 + n of what the projection kernel leaves is the projection of input row n of batch p. -/
theorem projected_row (p : Fin 4) (n : Fin 4096) (e : Fin 128) :
    Run.projArr (F := Ideal) m c (ix2 (flatRow p n) e) = proj (argX m c) (argW m c) (argB m c) p n e := by
  unfold Run.projArr
  refine (proj_array (Run.atProj m) c (flatRow p n) e).trans ?_
  unfold proj
  refine congrArg₂ (· + ·) (Finset.sum_congr rfl fun d _ => congrArg₂ (· * ·) (V1_v0 m c p n d) ?_) (V1_v1 m c e)
  show V1 m c main_arg1 (ix2 e d) = _
  rw [V1_arg1]

/-- The projected rows by batch, as the pairwise kernel finds them. -/
theorem projected_rows :
    (V3 m (Run.outsP m) c main_v3 : S4x4096x128.Idx → EReal) = fun o => proj (argX m c) (argW m c) (argB m c) (o 0) (o 1) (o 2) := by
  funext o
  obtain ⟨p, n, e, rfl⟩ : ∃ (p : Fin 4) (n : Fin 4096) (e : Fin 128), o = ix3 p n e := ⟨o 0, o 1, o 2, eq_ix3 o⟩
  refine (V3_v3 m (Run.outsP m) c p n e).trans ?_
  rw [Run.outsP_v2]
  exact projected_row m c p n e

/-- THE BRIDGE. The array the pairwise kernel's write-backs leave in the result buffer is the specification's array of
    the three arguments as launched: entry (p, i, j) is the kernel's arithmetic of the two squared lengths and the inner
    product of projected rows i and j of batch p, each read back to the arguments. -/
theorem result_is_spec :
    Run.pairArr (F := Ideal) m c = G (argX m c) (argW m c) (argB m c) := by
  funext o
  obtain ⟨p, i, j, rfl⟩ : ∃ (p : Fin 4) (i j : Fin 4096), o = ix3 p i j := ⟨o 0, o 1, o 2, eq_ix3 o⟩
  rw [G_ix3]
  unfold Run.pairArr
  refine (pair_array (Run.atPair m) c p i j).trans ?_
  unfold entry sqn gram
  have hrows := projected_rows m c
  have hcol : sqColArr (Run.atPair m) c (ix3 p i 0)
      = ∑ e : Fin 128, proj (argX m c) (argW m c) (argB m c) p i e * proj (argX m c) (argW m c) (argB m c) p i e :=
    V3_v7_of m (Run.outsP m) c _ hrows p i
  have hrow : sqRowArr (Run.atPair m) c (ix3 p 0 j)
      = ∑ e : Fin 128, proj (argX m c) (argW m c) (argB m c) p j e * proj (argX m c) (argW m c) (argB m c) p j e :=
    V3_v8_of m (Run.outsP m) c _ hrows p j
  have hgram : (∑ e : Fin 128, projArr (Run.atPair m) c (ix3 p i e) * projArr (Run.atPair m) c (ix3 p j e))
      = ∑ e : Fin 128, proj (argX m c) (argW m c) (argB m c) p i e * proj (argX m c) (argW m c) (argB m c) p j e :=
    Finset.sum_congr rfl fun e _ => by
      rw [show projArr (Run.atPair m) c = fun o => proj (argX m c) (argW m c) (argB m c) (o 0) (o 1) (o 2) from hrows]
  rw [hcol, hrow, hgram]

end Cert.KernelIdeal.Bridge

end
-- ==== Proof.lean ====
/-
  The certificate. The kernel program — a projection kernel, a little host arithmetic, a pairwise kernel — and the
  reference both compute, entry by entry,
      exp( −√( max( |h_i|² + |h_j|² − 2·h_i·h_j , 0 ) ) · 1 ),      h = x·Wᵀ + b,
  over the extended reals, where a change of float format is the identity. The two differ in how the arrays are cut
  into blocks and in which primitive forms each finite sum; a finite sum of extended reals does not depend on the
  order or grouping of its terms, so the two results are equal as they stand and the inputs' finiteness is never used.

  * The three frames (each program terminates, faults nowhere, leaves its arguments unchanged): for the kernel
    program, at the word level and at the ideal instance, from the run of its four items (two host stretches, two kernel
    regions); for the reference from its run with the result forgotten.
  * The idealized kernel is the kernel's own text read at the ideal instance: nothing was rewritten.
  * The results agree: the kernel program's result buffer ends at what the pairwise kernel's write-backs leave, which
    is the specification's array of the three arguments; the reference's ends at the same array.
-/
import proofs.«118612_j64948495450525_1_alg».proof.Defs
import proofs.«118612_j64948495450525_1_alg».proof.Proof.Gen.Kernel
import proofs.«118612_j64948495450525_1_alg».proof.Proof.Gen.KernelIdeal
import proofs.«118612_j64948495450525_1_alg».proof.Proof.Gen.ReferenceIdeal
import proofs.«118612_j64948495450525_1_alg».proof.Proof.Gen.Pre_finite_inputs
import proofs.«118612_j64948495450525_1_alg».proof.Proof.BitsRun
import proofs.«118612_j64948495450525_1_alg».proof.Proof.IdealRun
import proofs.«118612_j64948495450525_1_alg».proof.Proof.RefSide
import proofs.«118612_j64948495450525_1_alg».proof.Proof.Bridge
import Idealize.ShloMosaic.Adequacy
import Idealize.ShloMosaic.Init

noncomputable section

namespace Cert.Proof

open Idealize.ShloMosaic Idealize.SL.Sem

/-- The kernel program as printed terminates with its arguments unchanged. -/
theorem frame_k : Cert.frame_Kernel := fun m ρ _ => Cert.Kernel.Run.run_frame m ρ

/-- So does its idealization. -/
theorem frame_ki : Cert.frame_KernelIdeal := fun m ρ _ => Cert.KernelIdeal.Run.run_frame m ρ

/-- Nothing of the kernel's text was rewritten for the ideal reading. -/
theorem preserves : Cert.preserves_Kernel_KernelIdeal := trivial

/-- Both idealized programs, from memories agreeing on the arguments, end with the specification's array of those
    arguments in their result buffers. -/
theorem algebraic : Cert.algebraic_KernelIdeal_ReferenceIdeal := by
  intro m ρ m' ρ' _ hagree
  refine ⟨fun c => Cert.Pairwise.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Bridge.result_is_spec m c), (h c).2⟩)
      (Cert.KernelIdeal.Run.run_result m ρ)
  · exact (θ_run Cert.ReferenceIdeal.defs _ _).mono
      (fun _ h c => ⟨by rw [(h c).1, (hagree c).1, (hagree c).2.1, (hagree c).2.2], (h c).2⟩)
      (Cert.ReferenceIdeal.RefValue.ref_run m' ρ')

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
